-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v64) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part8 {F : FTy → Type} [FloatOps F] (main_v133 : IVec S_ 1) (main_v136 : IVec S10 1) : IVec S_ 1 :=
  let main_c_53 : IVec S_ 1 := constantI S_ 1 1#1
  let main_v137 : IVec S_ 1 := (fun x v => Host.reduce IntOp.andi x v reducesTo_S10_S_d0 h_S_) main_v136 main_c_53
  let main_v138 : IVec S_ 1 := andi main_v133 main_v137
  main_v138

def fn_part7 {F : FTy → Type} [FloatOps F] (main_arg27 : FVec F S128 .f32) (main_arg28 : FVec F S128x10 .f32) (main_arg29 : FVec F S10 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x10 .f32 := Host.absf main_arg28
  let main_cst_50 : FVec F S_ .f32 := constant S_ .f32 0x7F800000#32
  let main_v130 : FVec F S128x10 .f32 := broadcastInDim S128x10 ![] bcast_S_S128x10 main_cst_50
  let main_v131 : IVec S128x10 1 := cmpf .olt main_v129 main_v130
  let main_c_51 : IVec S_ 1 := constantI S_ 1 1#1
  let main_v132 : IVec S_ 1 := (fun x v => Host.reduce IntOp.andi x v reducesTo_S128x10_S_d0_1 h_S_) main_v131 main_c_51
  let main_v133 : IVec S_ 1 := andi main_v128 main_v132
  let main_v134 : FVec F S10 .f32 := Host.absf main_arg29
  let main_cst_52 : FVec F S_ .f32 := constant S_ .f32 0x7F800000#32
  let main_v135 : FVec F S10 .f32 := broadcastInDim S10 ![] bcast_S_S10 main_cst_52
  let main_v136 : IVec S10 1 := cmpf .olt main_v134 main_v135
  fn_part8 (F := F) main_v133 main_v136

def fn_part6 {F : FTy → Type} [FloatOps F] (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg26
  fn_part7 (F := F) main_arg27 main_arg28 main_arg29 main_v118 main_v119

def fn_part5 {F : FTy → Type} [FloatOps F] (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_arg29 main_v98 main_v101 main_c_39

def fn_part4 {F : FTy → Type} [FloatOps F] (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_v83 main_v84 main_cst_32

def fn_part3 {F : FTy → Type} [FloatOps F] (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_v63 main_v67

def fn_part2 {F : FTy → Type} [FloatOps F] (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x10 .f32) (main_arg29 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S5000x128 : Shape := ⟨2, ![5000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 130
  | .vmem => 51
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S128x10, .f32⟩
  | 29 => ⟨S10, .f32⟩
  | 30 => ⟨S1x1600000, .i32⟩
  | 31 => ⟨S1600000, .i32⟩
  | 32 => ⟨S1x1600000, .i32⟩
  | 33 => ⟨S1600000, .i32⟩
  | 34 => ⟨S50000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S50000x128, .f32⟩
  | 46 => ⟨S1600000x1, .i32⟩
  | 47 => ⟨S50000x128, .f32⟩
  | 48 => ⟨S_, .f32⟩
  | 49 => ⟨S1600000, .f32⟩
  | 50 => ⟨S_, .f32⟩
  | 51 => ⟨S50000, .f32⟩
  | 52 => ⟨S1600000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S50000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S50000x128, .f32⟩
  | 72 => ⟨S1600000x1, .i32⟩
  | 73 => ⟨S50000x128, .f32⟩
  | 74 => ⟨S_, .f32⟩
  | 75 => ⟨S1600000, .f32⟩
  | 76 => ⟨S_, .f32⟩
  | 77 => ⟨S50000, .f32⟩
  | 78 => ⟨S1600000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S_, .f32⟩
  | 97 => ⟨S50000x128, .f32⟩
  | 98 => ⟨S1600000x1, .i32⟩
  | 99 => ⟨S50000x128, .f32⟩
  | 100 => ⟨S_, .f32⟩
  | 101 => ⟨S1600000, .f32⟩
  | 102 => ⟨S_, .f32⟩
  | 103 => ⟨S50000, .f32⟩
  | 104 => ⟨S1600000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S50000x128, .f32⟩
  | 113 => ⟨S_, .f32⟩
  | 114 => ⟨S512x128, .f32⟩
  | 115 => ⟨S50000x1, .i32⟩
  | 116 => ⟨S512x128, .f32⟩
  | 117 => ⟨S_, .f32⟩
  | 118 => ⟨S50000, .f32⟩
  | 119 => ⟨S_, .f32⟩
  | 120 => ⟨S512, .f32⟩
  | 121 => ⟨S50000x1, .i32⟩
  | 122 => ⟨S512, .f32⟩
  | 123 => ⟨S_, .f32⟩
  | 124 => ⟨S512, .f32⟩
  | 125 => ⟨S512, .f32⟩
  | 126 => ⟨S512x1, .f32⟩
  | 127 => ⟨S512x128, .f32⟩
  | _ => ⟨S50000x128, .f32⟩

abbrev hbmTy0_1 (i : Nat) : BufTy := match i % 128 with
  | 0 => ⟨S512x128, .f32⟩
  | 1 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S128, .f32⟩
  | .local _ .vmem, ⟨43, _⟩ => ⟨S5000x128, .f32⟩
  | .local _ .vmem, ⟨44, _⟩ => ⟨S5000x128, .f32⟩
  | .local _ .vmem, ⟨45, _⟩ => ⟨S512x128, .f32⟩
  | .local _ .vmem, ⟨46, _⟩ => ⟨S128x128, .f32⟩
  | .local _ .vmem, ⟨47, _⟩ => ⟨S128, .f32⟩
  | .local _ .vmem, ⟨48, _⟩ => ⟨S128x10, .f32⟩
  | .local _ .vmem, ⟨49, _⟩ => ⟨S10, .f32⟩
  | .local _ .vmem, ⟨50, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_c : Ref sig .tc := ⟨.hbm, 35, rfl⟩
abbrev main_v5 : Ref sig .tc := ⟨.hbm, 36, rfl⟩
abbrev main_v6 : Ref sig .tc := ⟨.hbm, 37, rfl⟩
abbrev main_c_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_1 : Ref sig .tc := ⟨.hbm, 48, rfl⟩
abbrev main_v15 : Ref sig .tc := ⟨.hbm, 49, rfl⟩
abbrev main_cst_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_3 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_4 : Ref sig .tc := ⟨.hbm, 61, rfl⟩
abbrev main_v25 : Ref sig .tc := ⟨.hbm, 62, rfl⟩
abbrev main_v26 : Ref sig .tc := ⟨.hbm, 63, rfl⟩
abbrev main_c_5 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_6 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_7 : Ref sig .tc := ⟨.hbm, 74, rfl⟩
abbrev main_v35 : Ref sig .tc := ⟨.hbm, 75, rfl⟩
abbrev main_cst_8 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_9 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_10 : Ref sig .tc := ⟨.hbm, 87, rfl⟩
abbrev main_v45 : Ref sig .tc := ⟨.hbm, 88, rfl⟩
abbrev main_v46 : Ref sig .tc := ⟨.hbm, 89, rfl⟩
abbrev main_c_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_12 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_13 : Ref sig .tc := ⟨.hbm, 100, rfl⟩
abbrev main_v55 : Ref sig .tc := ⟨.hbm, 101, rfl⟩
abbrev main_cst_14 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_15 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_16 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_17 : Ref sig .tc := ⟨.hbm, 117, rfl⟩
abbrev main_v68 : Ref sig .tc := ⟨.hbm, 118, rfl⟩
abbrev main_cst_18 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_19 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg9_1 : Ref sig .tc := ⟨.vmem, 44, rfl⟩
abbrev cc4_stg0_0 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem9_1 : DmaSem sig := 44
abbrev cc4_sem0_0 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10.size a ≤ S128x10.size a
  hwx4_3 : ∀ i : grid4.Coords, EltTy.bits .f32 = 32 ∨ (Rect.block (s := S128x10) S128x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S10.size a ≤ S10.size a
  hwx4_4 : ∀ i : grid4.Coords, EltTy.bits .f32 = 32 ∨ (Rect.block (s := S10) S10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x10.size a ≤ S512x10.size a
  hwx4_5 : ∀ i : grid4.Coords, EltTy.bits .f32 = 32 ∨ (Rect.block (s := S512x10) S512x10.size (cc4_transform_5 i) (hinb4_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v44) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg19) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg20) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg21) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg22) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg23) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg24) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg25) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v64) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v76) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg26) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg27) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg28) S128x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg29) S10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S512x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 209
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S128x10, .f32⟩
  | 29 => ⟨S10, .f32⟩
  | 30 => ⟨S1x1600000, .i32⟩
  | 31 => ⟨S1600000, .i32⟩
  | 32 => ⟨S1x1600000, .i32⟩
  | 33 => ⟨S1600000, .i32⟩
  | 34 => ⟨S50000x128, .f32⟩
  | 35 => ⟨S1x128, .f32⟩
  | 36 => ⟨S50000x128, .f32⟩
  | 37 => ⟨S50000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S50000x128, .f32⟩
  | 49 => ⟨S1600000x1, .i32⟩
  | 50 => ⟨S50000x128, .f32⟩
  | 51 => ⟨S_, .f32⟩
  | 52 => ⟨S1600000, .f32⟩
  | 53 => ⟨S_, .f32⟩
  | 54 => ⟨S50000, .f32⟩
  | 55 => ⟨S1600000x1, .i32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S128, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S50000x128, .f32⟩
  | 97 => ⟨S1600000x1, .i32⟩
  | 98 => ⟨S50000x128, .f32⟩
  | 99 => ⟨S_, .f32⟩
  | 100 => ⟨S1600000, .f32⟩
  | 101 => ⟨S_, .f32⟩
  | 102 => ⟨S50000, .f32⟩
  | 103 => ⟨S1600000x1, .i32⟩
  | 104 => ⟨S50000, .f32⟩
  | 105 => ⟨S_, .f32⟩
  | 106 => ⟨S50000, .f32⟩
  | 107 => ⟨S50000, .f32⟩
  | 108 => ⟨S50000x1, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .f32⟩
  | 16 => ⟨S50000x128, .f32⟩
  | 17 => ⟨S1600000x1, .i32⟩
  | 18 => ⟨S50000x128, .f32⟩
  | 19 => ⟨S_, .f32⟩
  | 20 => ⟨S1600000, .f32⟩
  | 21 => ⟨S_, .f32⟩
  | 22 => ⟨S50000, .f32⟩
  | 23 => ⟨S1600000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S128, .f32⟩
  | 42 => ⟨S128, .f32⟩
  | 43 => ⟨S128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .f32⟩
  | 55 => ⟨S512x128, .f32⟩
  | 56 => ⟨S50000x1, .i32⟩
  | 57 => ⟨S512x128, .f32⟩
  | 58 => ⟨S_, .f32⟩
  | 59 => ⟨S50000, .f32⟩
  | 60 => ⟨S_, .f32⟩
  | 61 => ⟨S512, .f32⟩
  | 62 => ⟨S50000x1, .i32⟩
  | 63 => ⟨S512, .f32⟩
  | 64 => ⟨S_, .f32⟩
  | 65 => ⟨S512, .f32⟩
  | 66 => ⟨S512, .f32⟩
  | 67 => ⟨S512x1, .f32⟩
  | 68 => ⟨S512x128, .f32⟩
  | 69 => ⟨S512x128, .f32⟩
  | 70 => ⟨S512x128, .f32⟩
  | 71 => ⟨S1x128, .f32⟩
  | 72 => ⟨S512x128, .f32⟩
  | 73 => ⟨S512x128, .f32⟩
  | 74 => ⟨S_, .f32⟩
  | 75 => ⟨S512x128, .f32⟩
  | 76 => ⟨S512x128, .f32⟩
  | 77 => ⟨S512x10, .f32⟩
  | 78 => ⟨S1x10, .f32⟩
  | 79 => ⟨S512x10, .f32⟩
  | 80 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_c : Ref sig .tc := ⟨.hbm, 38, rfl⟩
abbrev main_v8 : Ref sig .tc := ⟨.hbm, 39, rfl⟩
abbrev main_v9 : Ref sig .tc := ⟨.hbm, 40, rfl⟩
abbrev main_c_0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_1 : Ref sig .tc := ⟨.hbm, 51, rfl⟩
abbrev main_v18 : Ref sig .tc := ⟨.hbm, 52, rfl⟩
abbrev main_cst_2 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_3 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_4 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_call0_cst : Ref sig .tc := ⟨.hbm, 83, rfl⟩
abbrev main_call0_v0 : Ref sig .tc := ⟨.hbm, 84, rfl⟩
abbrev main_v46 : Ref sig .tc := ⟨.hbm, 85, rfl⟩
abbrev main_c_5 : Ref sig .tc := ⟨.hbm, 86, rfl⟩
abbrev main_v47 : Ref sig .tc := ⟨.hbm, 87, rfl⟩
abbrev main_v48 : Ref sig .tc := ⟨.hbm, 88, rfl⟩
abbrev main_c_6 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_7 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_8 : Ref sig .tc := ⟨.hbm, 99, rfl⟩
abbrev main_v57 : Ref sig .tc := ⟨.hbm, 100, rfl⟩
abbrev main_cst_9 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_10 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_11 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_call1_cst : Ref sig .tc := ⟨.hbm, 131, rfl⟩
abbrev main_call1_v0 : Ref sig .tc := ⟨.hbm, 132, rfl⟩
abbrev main_v85 : Ref sig .tc := ⟨.hbm, 133, rfl⟩
abbrev main_c_12 : Ref sig .tc := ⟨.hbm, 134, rfl⟩
abbrev main_v86 : Ref sig .tc := ⟨.hbm, 135, rfl⟩
abbrev main_v87 : Ref sig .tc := ⟨.hbm, 136, rfl⟩
abbrev main_c_13 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_14 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_15 : Ref sig .tc := ⟨.hbm, 147, rfl⟩
abbrev main_v96 : Ref sig .tc := ⟨.hbm, 148, rfl⟩
abbrev main_cst_16 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_17 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_18 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_call2_cst : Ref sig .tc := ⟨.hbm, 179, rfl⟩
abbrev main_call2_v0 : Ref sig .tc := ⟨.hbm, 180, rfl⟩
abbrev main_v124 : Ref sig .tc := ⟨.hbm, 181, rfl⟩
abbrev main_cst_19 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_20 : Ref sig .tc := ⟨.hbm, 186, rfl⟩
abbrev main_v128 : Ref sig .tc := ⟨.hbm, 187, rfl⟩
abbrev main_cst_21 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_cst_22 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_call3_cst : Ref sig .tc := ⟨.hbm, 202, rfl⟩
abbrev main_call3_v0 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S128 : S_.BroadcastsInDim S128 (![] : Fin 0 → Fin S128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The run of the kernel program with the four returned arrays read off.

  From any launch memory with zero counters, every weakly fair execution of @main on the TensorCores terminates, and in
  every final state each of the four returned arrays holds what the fold of the buffer contents through @main's
  segments gives for it at the last boundary, while every argument array is as launched.
-/
import proofs.«153138_j47364899340883_1_alg».proof.Proof.Gen.KernelIdeal.Frame
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the implicit arguments of the theorem on a run of segments are found by unifying its conclusion with this one,
-- which takes unfolding plain definitions in a metavariable's type
set_option backward.isDefEq.respectTransparency.types false in
/-- The run: termination without fault from any memory with zero counters, and in every final state the four
    returned arrays at the last boundary's contents and the thirty argument arrays as launched. The last thread state
    says every unscoped buffer ends at the last boundary's contents; each conjunct reads one buffer off it. -/
theorem run_values : θ_run defs (onTc (τ := τ) (main (F := Ideal))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_v24) = W10 m ρ c (Proc.devRef .tc main_v24)
      ∧ r.2.mem ((c.tc : Thread nD τ).loc main_v44) = W10 m ρ c (Proc.devRef .tc main_v44)
      ∧ r.2.mem ((c.tc : Thread nD τ).loc main_v64) = W10 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77 (by decide)),
       h c _ (mem_uc main_v24 (by decide)),
       h c _ (mem_uc main_v44 (by decide)),
       h c _ (mem_uc main_v64 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c),
       (h c _ (mem_uc main_arg24 (by decide))).trans (W10_main_arg24 m ρ c),
       (h c _ (mem_uc main_arg25 (by decide))).trans (W10_main_arg25 m ρ c),
       (h c _ (mem_uc main_arg26 (by decide))).trans (W10_main_arg26 m ρ c),
       (h c _ (mem_uc main_arg27 (by decide))).trans (W10_main_arg27 m ρ c),
       (h c _ (mem_uc main_arg28 (by decide))).trans (W10_main_arg28 m ρ c),
       (h c _ (mem_uc main_arg29 (by decide))).trans (W10_main_arg29 m ρ c)⟩)

end Cert.KernelIdeal.Val

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibNormedLayers.lean ====
/-
  The three dense layers of the network, entry by entry on the extended reals — general in the extents.

  * `lin x w b` — a linear layer: at (r, j) the sum over k of x (r, k) · w (k, j), plus the bias b j.
  * `sage A X Wl Wr bl g bb bm bv` — one graph-convolution layer with its normalisation and rectifier: at (r, j)

        max ( ((A·Wl + X·Wr + bl j) − bm j) · (g j · rsqrt (bv j + ε)) + bb j , 0 ) ,

    the aggregated neighbour features `A` and the nodes' own features `X` each multiplied by its weight matrix,
    the bias `bl`, then the normalisation by the running mean `bm` and variance `bv` with scale `g` and shift `bb`.
  * `head p w1 b1 w2 b2` — two linear layers with a rectifier between them.

  Two laws: the other order of the three summands, (A·Wl + bl) + X·Wr, gives the same entry (addition of extended
  reals is commutative and associative also at the infinities, so nothing need be finite); and rows of a layer
  are layers of rows, which is why a layer computed one block of rows at a time is the whole layer.
-/
import Idealize.ShloMosaic.PureOps.Ideal.Laws
import Idealize.ShloMosaic.Lib.ValueIdx
import proofs.«153138_j47364899340883_1_alg».proof.Proof.LibRowsTimes

noncomputable section

namespace Cert.Net

open Idealize.ShloMosaic Idealize.ShloMosaic.ValueIdx Cert.Dense

variable {M K N : Nat}

/-- The variance floor ε, as the f32 word both programs print (never evaluated). -/
abbrev eps : EReal := Ideal.ofBits .f32 0x3727C5AC#32

/-- The zero both programs rectify against, as the f32 word they print. -/
abbrev zero : EReal := Ideal.ofBits .f32 0x00000000#32

/-- A linear layer: `x · w + b`, the bias one entry per output column. -/
def lin (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => rowsTimes x w i + b (ix1 (i 1 : Fin N))

/-- What the normalisation and the rectifier do to one pre-activation `y` in column `j`. -/
def normRelu (g bb bm bv : (⟨1, ![N]⟩ : Shape).Idx → EReal) (j : Fin N) (y : EReal) : EReal :=
  max ((y - bm (ix1 j)) * (g (ix1 j) * Ideal.rsqrt (bv (ix1 j) + eps)) + bb (ix1 j)) zero

/-- One graph-convolution layer, normalised and rectified. -/
def sage (A X : (⟨2, ![M, K]⟩ : Shape).Idx → EReal) (Wl Wr : (⟨2, ![K, N]⟩ : Shape).Idx → EReal)
    (bl g bb bm bv : (⟨1, ![N]⟩ : Shape).Idx → EReal) : (⟨2, ![M, N]⟩ : Shape).Idx → EReal :=
  fun i => normRelu g bb bm bv (i 1 : Fin N) ((rowsTimes A Wl i + rowsTimes X Wr i) + bl (ix1 (i 1 : Fin N)))

/-- The same layer with the bias added to the first product and the second product last: the same entry. -/
theorem sage_bias_first (A X : (⟨2, ![M, K]⟩ : Shape).Idx → EReal) (Wl Wr : (⟨2, ![K, N]⟩ : Shape).Idx → EReal)
    (bl g bb bm bv : (⟨1, ![N]⟩ : Shape).Idx → EReal) (i : (⟨2, ![M, N]⟩ : Shape).Idx) :
    normRelu g bb bm bv (i 1 : Fin N) ((rowsTimes A Wl i + bl (ix1 (i 1 : Fin N))) + rowsTimes X Wr i)
      = sage A X Wl Wr bl g bb bm bv i := by
  unfold sage
  rw [add_right_comm]

variable {H C : Nat}

/-- The classifier: a linear layer, the rectifier, a second linear layer. -/
def head (p : (⟨2, ![M, K]⟩ : Shape).Idx → EReal) (w1 : (⟨2, ![K, H]⟩ : Shape).Idx → EReal)
    (b1 : (⟨1, ![H]⟩ : Shape).Idx → EReal) (w2 : (⟨2, ![H, C]⟩ : Shape).Idx → EReal)
    (b2 : (⟨1, ![C]⟩ : Shape).Idx → EReal) : (⟨2, ![M, C]⟩ : Shape).Idx → EReal :=
  lin (relu (lin p w1 b1)) w2 b2

/-- Rows of a linear layer are linear layers of rows: where the block `x'` holds at row `j 0` what `x` holds at
    row `i 0`, and the columns agree, the block's layer at `j` is the whole layer at `i`. -/
theorem lin_of_rows {R : Nat} (x : (⟨2, ![M, K]⟩ : Shape).Idx → EReal) (w : (⟨2, ![K, N]⟩ : Shape).Idx → EReal)
    (b : (⟨1, ![N]⟩ : Shape).Idx → EReal) (x' : (⟨2, ![R, K]⟩ : Shape).Idx → EReal)
    (j : (⟨2, ![R, N]⟩ : Shape).Idx) (i : (⟨2, ![M, N]⟩ : Shape).Idx)
    (hx : ∀ k : Fin K, x' (ix2 (j 0 : Fin R) k) = x (ix2 (i 0 : Fin M) k)) (hc : (j 1 : Fin N) = (i 1 : Fin N)) :
    lin x' w b j = lin x w b i := by
  unfold lin
  rw [rowsTimes_of_rows x w x' w j i hx (fun k => by rw [hc]), hc]

/-- Rows of a graph-convolution layer are layers of rows, likewise. -/
theorem sage_of_rows {R : Nat} (A X : (⟨2, ![M, K]⟩ : Shape).Idx → EReal) (Wl Wr : (⟨2, ![K, N]⟩ : Shape).Idx → EReal)
    (bl g bb bm bv : (⟨1, ![N]⟩ : Shape).Idx → EReal) (A' X' : (⟨2, ![R, K]⟩ : Shape).Idx → EReal)
    (j : (⟨2, ![R, N]⟩ : Shape).Idx) (i : (⟨2, ![M, N]⟩ : Shape).Idx)
    (hA : ∀ k : Fin K, A' (ix2 (j 0 : Fin R) k) = A (ix2 (i 0 : Fin M) k))
    (hX : ∀ k : Fin K, X' (ix2 (j 0 : Fin R) k) = X (ix2 (i 0 : Fin M) k)) (hc : (j 1 : Fin N) = (i 1 : Fin N)) :
    sage A' X' Wl Wr bl g bb bm bv j = sage A X Wl Wr bl g bb bm bv i := by
  unfold sage
  rw [rowsTimes_of_rows A Wl A' Wl j i hA (fun k => by rw [hc]),
    rowsTimes_of_rows X Wr X' Wr j i hX (fun k => by rw [hc]), hc]

end Cert.Net

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«153138_j47364899340883_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Payloads.lean ====
/-
  What each kernel body computes, read at one entry (p, j) of its output block.

  The embedding body is a linear layer of its block of rows; the graph-convolution body is the normalised,
  rectified layer of LibNormedLayers of its two blocks of rows; the classifier's body is the two-layer classifier of its
  block. A matrix unit's product into a zero accumulator is the sum over k of left (p, k) · right (k, j); the casts
  of its operands to bf16 are the identity on the extended reals; a [128] vector given a leading unit axis and
  repeated down the rows is read at the column.
-/
import proofs.«153138_j47364899340883_1_alg».proof.Proof.Gen.KernelIdeal.Skeleton
import proofs.«153138_j47364899340883_1_alg».proof.Proof.LibNormedLayers
import proofs.«153138_j47364899340883_1_alg».proof.Proof.LibRowsCols
import proofs.«153138_j47364899340883_1_alg».proof.Proof.LibColumnLayout

noncomputable section

namespace Cert.KernelIdeal.Val

open Cert.KernelIdeal Cert.KernelIdeal.Gen Idealize.ShloMosaic Idealize.ShloMosaic.ValueIdx Cert.Dense

variable [Cert.KernelIdeal.Facts]

/-- The record's operand indices at output (r, j) and contraction position k are (r, k) and (k, j). -/
theorem rc_block : Cert.Dense.RowsCols dot_S5000x128_S128x128_S5000x128_1_0_0_1_n_n where
  rank := rfl
  size := rfl
  l0 := fun i q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  l1 := fun i q => dot_S5000x128_S128x128_S5000x128_1_0_0_1_n_n.lhsIdx_val_of_single rfl i q
  r0 := fun i q => dot_S5000x128_S128x128_S5000x128_1_0_0_1_n_n.rhsIdx_val_of_single rfl i q
  r1 := fun i q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- The record's operand indices at output (r, j) and contraction position k are (r, k) and (k, j). -/
theorem rc_pool : Cert.Dense.RowsCols dot_S512x128_S128x128_S512x128_1_0_0_1_n_n where
  rank := rfl
  size := rfl
  l0 := fun i q => by
    unfold DotDims.lhsIdx
    rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
    rfl
  l1 := fun i q => dot_S512x128_S128x128_S512x128_1_0_0_1_n_n.lhsIdx_val_of_single rfl i q
  r0 := fun i q => dot_S512x128_S128x128_S512x128_1_0_0_1_n_n.rhsIdx_val_of_single rfl i q
  r1 := fun i q => by
    unfold DotDims.rhsIdx
    rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
    rfl

/-- The record's operand indices at output (r, j) and contraction position k are (r, k) and (k, j). -/
theorem rc_out : Cert.Dense.RowsCols dot_S512x128_S128x10_S512x10_1_0_0_1_n_n where
  rank := rfl
  size := rfl
  l0 := fun i q => by
    unfold DotDims.lhsIdx
    rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
    rfl
  l1 := fun i q => dot_S512x128_S128x10_S512x10_1_0_0_1_n_n.lhsIdx_val_of_single rfl i q
  r0 := fun i q => dot_S512x128_S128x10_S512x10_1_0_0_1_n_n.rhsIdx_val_of_single rfl i q
  r1 := fun i q => by
    unfold DotDims.rhsIdx
    rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
    rfl

/-- The embedding body at (p, j): the linear layer of the block. -/
theorem pay0 (x : Vec Ideal S5000x128 .f32) (w : Vec Ideal S128x128 .f32) (b : Vec Ideal S128 .f32) (p : Fin 5000) (j : Fin 128) :
    k0_pay1 (F := Ideal) x w b (ix2 p j) = Cert.Net.lin x w b (ix2 p j) := by
  unfold k0_pay1 Cert.Net.lin
  refine (addf_apply _ _ _).trans ?_
  refine congrArg₂ (· + ·) ?_ ?_
  · exact matmul_zero_apply rc_block none _ _ (ix2 p j)
  · exact ColumnLayout.row_broadcast_apply b _ _ p j

/-- The graph-convolution body of region 1 at (p, j): the normalised, rectified layer of its two blocks of rows. -/
theorem pay1 (a h : Vec Ideal S5000x128 .f32) (wl wr : Vec Ideal S128x128 .f32) (bl g bv bm bb : Vec Ideal S128 .f32)
    (p : Fin 5000) (j : Fin 128) :
    k1_pay1 (F := Ideal) a h wl wr bl g bv bm bb (ix2 p j) = Cert.Net.sage a h wl wr bl g bb bm bv (ix2 p j) := by
  have hrow : ∀ v : Vec Ideal S128 .f32,
      broadcastTo S5000x128 (shapeCast S1x128 v shapeCasts_S128_S1x128) broadcasts_S1x128_S5000x128 (ix2 p j) = v (ix1 j) :=
    fun v => ColumnLayout.row_broadcast_apply v _ _ p j
  have hprod : ∀ (x : Vec Ideal S5000x128 .f32) (w : Vec Ideal S128x128 .f32),
      matmul dot_S5000x128_S128x128_S5000x128_1_0_0_1_n_n none
        (truncf .bf16 (shapeCast S5000x128 x shapeCasts_S5000x128_S5000x128) bitsLt_bf16_f32) (truncf .bf16 w bitsLt_bf16_f32)
        (constant (F := Ideal) S5000x128 .f32 0x00000000#32) (ix2 p j) = rowsTimes x w (ix2 p j) := fun x w => by
    rw [shapeCast_self]
    exact matmul_zero_apply rc_block none _ _ (ix2 p j)
  unfold k1_pay1 Cert.Net.sage Cert.Net.normRelu
  simp only [maximumf_apply, addf_apply, subf_apply, mulf_apply, hrow, hprod]
  rfl

/-- The graph-convolution body of region 2 at (p, j): the normalised, rectified layer of its two blocks of rows. -/
theorem pay2 (a h : Vec Ideal S5000x128 .f32) (wl wr : Vec Ideal S128x128 .f32) (bl g bv bm bb : Vec Ideal S128 .f32)
    (p : Fin 5000) (j : Fin 128) :
    k2_pay1 (F := Ideal) a h wl wr bl g bv bm bb (ix2 p j) = Cert.Net.sage a h wl wr bl g bb bm bv (ix2 p j) := by
  have hrow : ∀ v : Vec Ideal S128 .f32,
      broadcastTo S5000x128 (shapeCast S1x128 v shapeCasts_S128_S1x128) broadcasts_S1x128_S5000x128 (ix2 p j) = v (ix1 j) :=
    fun v => ColumnLayout.row_broadcast_apply v _ _ p j
  have hprod : ∀ (x : Vec Ideal S5000x128 .f32) (w : Vec Ideal S128x128 .f32),
      matmul dot_S5000x128_S128x128_S5000x128_1_0_0_1_n_n none
        (truncf .bf16 (shapeCast S5000x128 x shapeCasts_S5000x128_S5000x128) bitsLt_bf16_f32) (truncf .bf16 w bitsLt_bf16_f32)
        (constant (F := Ideal) S5000x128 .f32 0x00000000#32) (ix2 p j) = rowsTimes x w (ix2 p j) := fun x w => by
    rw [shapeCast_self]
    exact matmul_zero_apply rc_block none _ _ (ix2 p j)
  unfold k2_pay1 Cert.Net.sage Cert.Net.normRelu
  simp only [maximumf_apply, addf_apply, subf_apply, mulf_apply, hrow, hprod]
  rfl

/-- The graph-convolution body of region 3 at (p, j): the normalised, rectified layer of its two blocks of rows. -/
theorem pay3 (a h : Vec Ideal S5000x128 .f32) (wl wr : Vec Ideal S128x128 .f32) (bl g bv bm bb : Vec Ideal S128 .f32)
    (p : Fin 5000) (j : Fin 128) :
    k3_pay1 (F := Ideal) a h wl wr bl g bv bm bb (ix2 p j) = Cert.Net.sage a h wl wr bl g bb bm bv (ix2 p j) := by
  have hrow : ∀ v : Vec Ideal S128 .f32,
      broadcastTo S5000x128 (shapeCast S1x128 v shapeCasts_S128_S1x128) broadcasts_S1x128_S5000x128 (ix2 p j) = v (ix1 j) :=
    fun v => ColumnLayout.row_broadcast_apply v _ _ p j
  have hprod : ∀ (x : Vec Ideal S5000x128 .f32) (w : Vec Ideal S128x128 .f32),
      matmul dot_S5000x128_S128x128_S5000x128_1_0_0_1_n_n none
        (truncf .bf16 (shapeCast S5000x128 x shapeCasts_S5000x128_S5000x128) bitsLt_bf16_f32) (truncf .bf16 w bitsLt_bf16_f32)
        (constant (F := Ideal) S5000x128 .f32 0x00000000#32) (ix2 p j) = rowsTimes x w (ix2 p j) := fun x w => by
    rw [shapeCast_self]
    exact matmul_zero_apply rc_block none _ _ (ix2 p j)
  unfold k3_pay1 Cert.Net.sage Cert.Net.normRelu
  simp only [maximumf_apply, addf_apply, subf_apply, mulf_apply, hrow, hprod]
  rfl

/-- The classifier's hidden layer, as an array: the rectified linear layer of the block. -/
theorem hidden4 (x : Vec Ideal S512x128 .f32) (w1 : Vec Ideal S128x128 .f32) (b1 : Vec Ideal S128 .f32) :
    maximumf (addf (matmul dot_S512x128_S128x128_S512x128_1_0_0_1_n_n none
        (truncf .bf16 (shapeCast S512x128 x shapeCasts_S512x128_S512x128) bitsLt_bf16_f32) (truncf .bf16 w1 bitsLt_bf16_f32)
        (constant (F := Ideal) S512x128 .f32 0x00000000#32))
      (broadcastTo S512x128 (shapeCast S1x128 b1 shapeCasts_S128_S1x128) broadcasts_S1x128_S512x128))
      (broadcast S512x128 (Scalar.ofBits (F := Ideal) .f32 0x00000000#32)) = relu (Cert.Net.lin x w1 b1) := by
  funext i
  obtain ⟨p, k, rfl⟩ : ∃ (p : Fin 512) (k : Fin 128), i = ix2 p k := ⟨i 0, i 1, eq_ix2 i⟩
  unfold relu Cert.Net.lin
  refine (maximumf_apply _ _ _).trans ?_
  refine congrArg₂ max ?_ rfl
  refine (addf_apply _ _ _).trans ?_
  refine congrArg₂ (· + ·) ?_ ?_
  · rw [shapeCast_self]
    exact matmul_zero_apply rc_pool none _ _ (ix2 p k)
  · exact ColumnLayout.row_broadcast_apply b1 _ _ p k

/-- The classifier's body at (p, j): the two-layer classifier of the block. -/
theorem pay4 (x : Vec Ideal S512x128 .f32) (w1 : Vec Ideal S128x128 .f32) (b1 : Vec Ideal S128 .f32)
    (w2 : Vec Ideal S128x10 .f32) (b2 : Vec Ideal S10 .f32) (p : Fin 512) (j : Fin 10) :
    k4_pay1 (F := Ideal) x w1 b1 w2 b2 (ix2 p j) = Cert.Net.head x w1 b1 w2 b2 (ix2 p j) := by
  unfold k4_pay1 Cert.Net.head
  rw [hidden4 x w1 b1]
  unfold Cert.Net.lin
  refine (addf_apply _ _ _).trans ?_
  refine congrArg₂ (· + ·) ?_ ?_
  · exact matmul_zero_apply rc_out none _ _ (ix2 p j)
  · exact ColumnLayout.row_broadcast_apply b2 _ _ p j

end Cert.KernelIdeal.Val

end
-- ==== Proof.Finals.lean ====
/-
  What each of the five kernels leaves in its output array, as one function of the arrays it was given.

  A kernel runs once per grid point on one block of 5000 rows (the classifier once, on everything). At a point the
  body's result is the layer of the point's blocks (Payloads); a block of rows of a layer is the layer of the
  whole arrays read at those rows (LibNormedLayers: rows of a layer are layers of rows); and the ten blocks, written back at
  rows 5000·t … 5000·t + 4999, fill the array. So the array ends holding the layer of the whole arrays.
-/
import proofs.«153138_j47364899340883_1_alg».proof.Proof.Gen.KernelIdeal.Frame
import proofs.«153138_j47364899340883_1_alg».proof.Proof.LibNormedLayers
import proofs.«153138_j47364899340883_1_alg».proof.Proof.Payloads
import Idealize.ShloMosaic.Lib.Pipeline.Value

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The embedding body at an entry of its block is the whole layer at the entry's place in the array, when the
    block's row there is the array's row. -/
theorem block_lin (x' : Vec Ideal S5000x128 .f32) (w : Vec Ideal S128x128 .f32) (b : Vec Ideal S128 .f32)
    (X : S50000x128.Idx → EReal) (y : S5000x128.Idx) (i : S50000x128.Idx)
    (hx : ∀ q : Fin 128, x' (ix2 (y 0 : Fin 5000) q) = X (ix2 (i 0 : Fin 50000) q)) (hc : (y 1 : Fin 128) = (i 1 : Fin 128)) :
    k0_pay1 (F := Ideal) x' w b y = Cert.Net.lin X w b i := by
  rw [eq_ix2 y]
  exact (pay0 x' w b _ _).trans (Cert.Net.lin_of_rows X w b x' _ i hx hc)

/-- The graph-convolution body of region 1 at an entry of its block is the whole layer at the entry's place, when
    the two blocks' rows there are the arrays' rows. -/
theorem block_sage1 (a' h' : Vec Ideal S5000x128 .f32) (wl wr : Vec Ideal S128x128 .f32) (bl g bv bm bb : Vec Ideal S128 .f32)
    (A X : S50000x128.Idx → EReal) (y : S5000x128.Idx) (i : S50000x128.Idx)
    (ha : ∀ q : Fin 128, a' (ix2 (y 0 : Fin 5000) q) = A (ix2 (i 0 : Fin 50000) q))
    (hx : ∀ q : Fin 128, h' (ix2 (y 0 : Fin 5000) q) = X (ix2 (i 0 : Fin 50000) q)) (hc : (y 1 : Fin 128) = (i 1 : Fin 128)) :
    k1_pay1 (F := Ideal) a' h' wl wr bl g bv bm bb y = Cert.Net.sage A X wl wr bl g bb bm bv i := by
  rw [eq_ix2 y]
  exact (pay1 a' h' wl wr bl g bv bm bb _ _).trans (Cert.Net.sage_of_rows A X wl wr bl g bb bm bv a' h' _ i ha hx hc)

/-- The graph-convolution body of region 2 at an entry of its block is the whole layer at the entry's place, when
    the two blocks' rows there are the arrays' rows. -/
theorem block_sage2 (a' h' : Vec Ideal S5000x128 .f32) (wl wr : Vec Ideal S128x128 .f32) (bl g bv bm bb : Vec Ideal S128 .f32)
    (A X : S50000x128.Idx → EReal) (y : S5000x128.Idx) (i : S50000x128.Idx)
    (ha : ∀ q : Fin 128, a' (ix2 (y 0 : Fin 5000) q) = A (ix2 (i 0 : Fin 50000) q))
    (hx : ∀ q : Fin 128, h' (ix2 (y 0 : Fin 5000) q) = X (ix2 (i 0 : Fin 50000) q)) (hc : (y 1 : Fin 128) = (i 1 : Fin 128)) :
    k2_pay1 (F := Ideal) a' h' wl wr bl g bv bm bb y = Cert.Net.sage A X wl wr bl g bb bm bv i := by
  rw [eq_ix2 y]
  exact (pay2 a' h' wl wr bl g bv bm bb _ _).trans (Cert.Net.sage_of_rows A X wl wr bl g bb bm bv a' h' _ i ha hx hc)

/-- The graph-convolution body of region 3 at an entry of its block is the whole layer at the entry's place, when
    the two blocks' rows there are the arrays' rows. -/
theorem block_sage3 (a' h' : Vec Ideal S5000x128 .f32) (wl wr : Vec Ideal S128x128 .f32) (bl g bv bm bb : Vec Ideal S128 .f32)
    (A X : S50000x128.Idx → EReal) (y : S5000x128.Idx) (i : S50000x128.Idx)
    (ha : ∀ q : Fin 128, a' (ix2 (y 0 : Fin 5000) q) = A (ix2 (i 0 : Fin 50000) q))
    (hx : ∀ q : Fin 128, h' (ix2 (y 0 : Fin 5000) q) = X (ix2 (i 0 : Fin 50000) q)) (hc : (y 1 : Fin 128) = (i 1 : Fin 128)) :
    k3_pay1 (F := Ideal) a' h' wl wr bl g bv bm bb y = Cert.Net.sage A X wl wr bl g bb bm bv i := by
  rw [eq_ix2 y]
  exact (pay3 a' h' wl wr bl g bv bm bb _ _).trans (Cert.Net.sage_of_rows A X wl wr bl g bb bm bv a' h' _ i ha hx hc)

/-! ## Region 0 -/

/-- The printed index maps over the ten grid points: a block of rows sits at the point's number, every other
    window and every column index at zero. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

set_option maxHeartbeats 4000000 in
/-- What point `t` writes back is block `t` of the layer of the whole arrays. -/
theorem flushed0_eq (c : Dev nD) (t : Fin cfg0.N) :
    (dat0 (F := Ideal) V c).flushed 3 t = ((cfg0.win 3).blk t).view.read (Elt Ideal) (Cert.Net.lin (V c main_arg0) (V c main_arg3) (V c main_arg4)) := by
  show (cfg0.win 3).cut (grid0.coords t) ((dat0 (F := Ideal) V c).after 3 t) = _
  rw [after0_3]
  unfold out0_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts0 t
  have hw1 : iblk0 V c 1 t = V c main_arg3 := by
    funext z
    show V c main_arg3 (((cfg0.win 1).blk t).view.emb z) = V c main_arg3 z
    refine congrArg _ (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  have hw2 : iblk0 V c 2 t = V c main_arg4 := by
    funext z
    show V c main_arg4 (((cfg0.win 2).blk t).view.emb z) = V c main_arg4 z
    refine congrArg _ (funext fun a => Fin.ext ?_)
    match a with
    | ⟨0, _⟩ => show win0_2.index t (0 : Fin 1) * 128 + 1 * (z 0).val = (z 0).val; omega
  rw [hw1, hw2]
  funext y
  refine block_lin (iblk0 V c 0 t) (V c main_arg3) (V c main_arg4) (V c main_arg0) y (((cfg0.win 3).blk t).view.emb y) (fun q => ?_) ?_
  · show V c main_arg0 (((cfg0.win 0).blk t).view.emb (ix2 (y 0 : Fin 5000) q)) = V c main_arg0 (ix2 ((((cfg0.win 3).blk t).view.emb y) 0 : Fin 50000) q)
    refine congrArg _ (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * q.val = q.val; omega
  · refine Fin.ext ?_
    show (y 1).val = win0_3.index t (1 : Fin 2) * 128 + 1 * (y 1).val
    omega

/-- An index of the output array is in point `t`'s block iff each coordinate is in the block's range. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4).slice (win0_3.rect t)).set ↔ _
  rw [View.set_slice_whole, Rect.mem_set_unit]
  exact Iff.rfl

/-- Every row lies in the block of the point numbered by the row's quotient by 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk0]
  obtain ⟨e0, e1, e2, e3, e4, e5, e6⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e5]
    show (i 0).val / 5000 * 5000 ≤ (i 0).val ∧ (i 0).val < (i 0).val / 5000 * 5000 + 5000
    omega
  | ⟨1, _⟩ =>
    show win0_3.index _ (1 : Fin 2) * 128 ≤ (i 1).val ∧ (i 1).val < win0_3.index _ (1 : Fin 2) * 128 + 128
    rw [e6]
    omega

/-- The input layer's kernel leaves `x · w + b` of its three arrays. -/
theorem final0 (c : Dev nD) :
    (dat0 (F := Ideal) V c).arrAt 3 cfg0.N = Cert.Net.lin (V c main_arg0) (V c main_arg3) (V c main_arg4) :=
  (dat0 (F := Ideal) V c).arrAt_eq_of_cover 3 _ (fun t _ => flushed0_eq V c t) cover0

/-! ## Region 1 -/

/-- The printed index maps over the ten grid points: a block of rows sits at the point's number, every other
    window and every column index at zero. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 1) = 0
    ∧ win1_7.index t (0 : Fin 1) = 0
    ∧ win1_8.index t (0 : Fin 1) = 0
    ∧ win1_9.index t (0 : Fin 2) = t.val
    ∧ win1_9.index t (1 : Fin 2) = 0 :=
  (by decide +kernel : ∀ t : Fin grid1.N, _)

set_option maxHeartbeats 4000000 in
/-- What point `t` writes back is block `t` of the layer of the whole arrays. -/
theorem flushed1_eq (c : Dev nD) (t : Fin cfg1.N) :
    (dat1 (F := Ideal) V c).flushed 9 t = ((cfg1.win 9).blk t).view.read (Elt Ideal) (Cert.Net.sage (V c main_v23) (V c main_v4) (V c main_arg5) (V c main_arg7) (V c main_arg6) (V c main_arg8) (V c main_arg9) (V c main_arg10) (V c main_arg11)) := by
  show (cfg1.win 9).cut (grid1.coords t) ((dat1 (F := Ideal) V c).after 9 t) = _
  rw [after1_9]
  unfold out1_9
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10, e11, e12, e13, e14⟩ := idx_facts1 t
  have hw2 : iblk1 V c 2 t = V c main_arg5 := by
    funext z
    show V c main_arg5 (((cfg1.win 2).blk t).view.emb z) = V c main_arg5 z
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  have hw3 : iblk1 V c 3 t = V c main_arg6 := by
    funext z
    show V c main_arg6 (((cfg1.win 3).blk t).view.emb z) = V c main_arg6 z
    refine congrArg _ (funext fun a => Fin.ext ?_)
    match a with
    | ⟨0, _⟩ => show win1_3.index t (0 : Fin 1) * 128 + 1 * (z 0).val = (z 0).val; omega
  have hw4 : iblk1 V c 4 t = V c main_arg7 := by
    funext z
    show V c main_arg7 (((cfg1.win 4).blk t).view.emb z) = V c main_arg7 z
    refine congrArg _ (funext fun a => Fin.ext ?_)
    match a with
    | ⟨0, _⟩ => show win1_4.index t (0 : Fin 2) * 128 + 1 * (z 0).val = (z 0).val; omega
    | ⟨1, _⟩ => show win1_4.index t (1 : Fin 2) * 128 + 1 * (z 1).val = (z 1).val; omega
  have hw5 : iblk1 V c 5 t = V c main_arg8 := by
    funext z
    show V c main_arg8 (((cfg1.win 5).blk t).view.emb z) = V c main_arg8 z
    refine congrArg _ (funext fun a => Fin.ext ?_)
    match a with
    | ⟨0, _⟩ => show win1_5.index t (0 : Fin 1) * 128 + 1 * (z 0).val = (z 0).val; omega
  have hw6 : iblk1 V c 6 t = V c main_arg9 := by
    funext z
    show V c main_arg9 (((cfg1.win 6).blk t).view.emb z) = V c main_arg9 z
    refine congrArg _ (funext fun a => Fin.ext ?_)
    match a with
    | ⟨0, _⟩ => show win1_6.index t (0 : Fin 1) * 128 + 1 * (z 0).val = (z 0).val; omega
  have hw7 : iblk1 V c 7 t = V c main_arg10 := by
    funext z
    show V c main_arg10 (((cfg1.win 7).blk t).view.emb z) = V c main_arg10 z
    refine congrArg _ (funext fun a => Fin.ext ?_)
    match a with
    | ⟨0, _⟩ => show win1_7.index t (0 : Fin 1) * 128 + 1 * (z 0).val = (z 0).val; omega
  have hw8 : iblk1 V c 8 t = V c main_arg11 := by
    funext z
    show V c main_arg11 (((cfg1.win 8).blk t).view.emb z) = V c main_arg11 z
    refine congrArg _ (funext fun a => Fin.ext ?_)
    match a with
    | ⟨0, _⟩ => show win1_8.index t (0 : Fin 1) * 128 + 1 * (z 0).val = (z 0).val; omega
  rw [hw2, hw3, hw4, hw5, hw6, hw7, hw8]
  funext y
  refine block_sage1 (iblk1 V c 0 t) (iblk1 V c 1 t) (V c main_arg5) (V c main_arg7) (V c main_arg6) (V c main_arg8) (V c main_arg11) (V c main_arg10) (V c main_arg9) (V c main_v23) (V c main_v4) y (((cfg1.win 9).blk t).view.emb y) (fun q => ?_) (fun q => ?_) ?_
  · show V c main_v23 (((cfg1.win 0).blk t).view.emb (ix2 (y 0 : Fin 5000) q)) = V c main_v23 (ix2 ((((cfg1.win 9).blk t).view.emb y) 0 : Fin 50000) q)
    refine congrArg _ (funext fun a => Fin.ext ?_)
    match a with
    | ⟨0, _⟩ => show win1_0.index t (0 : Fin 2) * 5000 + 1 * (y 0).val = win1_9.index t (0 : Fin 2) * 5000 + 1 * (y 0).val; omega
    | ⟨1, _⟩ => show win1_0.index t (1 : Fin 2) * 128 + 1 * q.val = q.val; omega
  · show V c main_v4 (((cfg1.win 1).blk t).view.emb (ix2 (y 0 : Fin 5000) q)) = V c main_v4 (ix2 ((((cfg1.win 9).blk t).view.emb y) 0 : Fin 50000) q)
    refine congrArg _ (funext fun a => Fin.ext ?_)
    match a with
    | ⟨0, _⟩ => show win1_1.index t (0 : Fin 2) * 5000 + 1 * (y 0).val = win1_9.index t (0 : Fin 2) * 5000 + 1 * (y 0).val; omega
    | ⟨1, _⟩ => show win1_1.index t (1 : Fin 2) * 128 + 1 * q.val = q.val; omega
  · refine Fin.ext ?_
    show (y 1).val = win1_9.index t (1 : Fin 2) * 128 + 1 * (y 1).val
    omega

/-- An index of the output array is in point `t`'s block iff each coordinate is in the block's range. -/
theorem mem_blk1 (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v24).slice (win1_9.rect t)).set ↔ _
  rw [View.set_slice_whole, Rect.mem_set_unit]
  exact Iff.rfl

/-- Every row lies in the block of the point numbered by the row's quotient by 5000. -/
theorem cover1 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_9 _, ?_⟩
  rw [mem_blk1]
  obtain ⟨e0, e1, e2, e3, e4, e5, e6, e7, e8, e9, e10, e11, e12, e13, e14⟩ := idx_facts1 ⟨(i 0).val / 5000, by rw [hN]; omega⟩
  intro a
  match a with
  | ⟨0, _⟩ =>
    show win1_9.index _ (0 : Fin 2) * 5000 ≤ (i 0).val ∧ (i 0).val < win1_9.index _ (0 : Fin 2) * 5000 + 5000
    rw [e13]
    show (i 0).val / 5000 * 5000 ≤ (i 0).val ∧ (i 0).val < (i 0).val / 5000 * 5000 + 5000
    omega
  | ⟨1, _⟩ =>
    show win1_9.index _ (1 : Fin 2) * 128 ≤ (i 1).val ∧ (i 1).val < win1_9.index _ (1 : Fin 2) * 128 + 128
    rw [e14]
    omega

/-- The graph-convolution kernel of region 1 leaves the layer of its nine arrays. -/
theorem final1 (c : Dev nD) :
    (dat1 (F := Ideal) V c).arrAt 9 cfg1.N = Cert.Net.sage (V c main_v23) (V c main_v4) (V c main_arg5) (V c main_arg7)
      (V c main_arg6) (V c main_arg8) (V c main_arg9) (V c main_arg10) (V c main_arg11) :=
  (dat1 (F := Ideal) V c).arrAt_eq_of_cover 9 _ (fun t _ => flushed1_eq V c t) cover1

/-! ## Region 2 -/

/-- The printed index maps over the ten grid points: a block of rows sits at the point's number, every other
    window and every column index at zero. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 1) = 0
    ∧ win2_6.index t (0 : Fin 1) = 0
    ∧ win2_7.index t (0 : Fin 1) = 0
    ∧ win2_8.index t (0 : Fin 1) = 0
    ∧ win2_9.index t (0 : Fin 2) = t.val
    ∧ win2_9.index t (1 : Fin 2) = 0 :=
  (by decide +kernel : ∀ t : Fin grid2.N, _)

set_option maxHeartbeats 4000000 in
/-- What point `t` writes back is block `t` of the layer of the whole arrays. -/
theorem flushed2_eq (c : Dev nD) (t : Fin cfg2.N) :
    (dat2 (F := Ideal) V c).flushed 9 t = ((cfg2.win 9).blk t).view.read (Elt Ideal) (Cert.Net.sage (V c main_v43) (V c main_v24) (V c main_arg12) (V c main_arg14) (V c main_arg13) (V c main_arg15) (V c main_arg16) (V c main_arg17) (V c main_arg18)) := by
  show (cfg2.win 9).cut (grid2.coords t) ((dat2 (F := Ideal) V c).after 9 t) = _
  rw [after2_9]
  unfold out2_9
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10, e11, e12, e13, e14⟩ := idx_facts2 t
  have hw2 : iblk2 V c 2 t = V c main_arg12 := by
    funext z
    show V c main_arg12 (((cfg2.win 2).blk t).view.emb z) = V c main_arg12 z
    refine congrArg _ (funext fun a => Fin.ext ?_)
    match a with
    | ⟨0, _⟩ => show win2_2.index t (0 : Fin 2) * 128 + 1 * (z 0).val = (z 0).val; omega
    | ⟨1, _⟩ => show win2_2.index t (1 : Fin 2) * 128 + 1 * (z 1).val = (z 1).val; omega
  have hw3 : iblk2 V c 3 t = V c main_arg13 := by
    funext z
    show V c main_arg13 (((cfg2.win 3).blk t).view.emb z) = V c main_arg13 z
    refine congrArg _ (funext fun a => Fin.ext ?_)
    match a with
    | ⟨0, _⟩ => show win2_3.index t (0 : Fin 1) * 128 + 1 * (z 0).val = (z 0).val; omega
  have hw4 : iblk2 V c 4 t = V c main_arg14 := by
    funext z
    show V c main_arg14 (((cfg2.win 4).blk t).view.emb z) = V c main_arg14 z
    refine congrArg _ (funext fun a => Fin.ext ?_)
    match a with
    | ⟨0, _⟩ => show win2_4.index t (0 : Fin 2) * 128 + 1 * (z 0).val = (z 0).val; omega
    | ⟨1, _⟩ => show win2_4.index t (1 : Fin 2) * 128 + 1 * (z 1).val = (z 1).val; omega
  have hw5 : iblk2 V c 5 t = V c main_arg15 := by
    funext z
    show V c main_arg15 (((cfg2.win 5).blk t).view.emb z) = V c main_arg15 z
    refine congrArg _ (funext fun a => Fin.ext ?_)
    match a with
    | ⟨0, _⟩ => show win2_5.index t (0 : Fin 1) * 128 + 1 * (z 0).val = (z 0).val; omega
  have hw6 : iblk2 V c 6 t = V c main_arg16 := by
    funext z
    show V c main_arg16 (((cfg2.win 6).blk t).view.emb z) = V c main_arg16 z
    refine congrArg _ (funext fun a => Fin.ext ?_)
    match a with
    | ⟨0, _⟩ => show win2_6.index t (0 : Fin 1) * 128 + 1 * (z 0).val = (z 0).val; omega
  have hw7 : iblk2 V c 7 t = V c main_arg17 := by
    funext z
    show V c main_arg17 (((cfg2.win 7).blk t).view.emb z) = V c main_arg17 z
    refine congrArg _ (funext fun a => Fin.ext ?_)
    match a with
    | ⟨0, _⟩ => show win2_7.index t (0 : Fin 1) * 128 + 1 * (z 0).val = (z 0).val; omega
  have hw8 : iblk2 V c 8 t = V c main_arg18 := by
    funext z
    show V c main_arg18 (((cfg2.win 8).blk t).view.emb z) = V c main_arg18 z
    refine congrArg _ (funext fun a => Fin.ext ?_)
    match a with
    | ⟨0, _⟩ => show win2_8.index t (0 : Fin 1) * 128 + 1 * (z 0).val = (z 0).val; omega
  rw [hw2, hw3, hw4, hw5, hw6, hw7, hw8]
  funext y
  refine block_sage2 (iblk2 V c 0 t) (iblk2 V c 1 t) (V c main_arg12) (V c main_arg14) (V c main_arg13) (V c main_arg15) (V c main_arg18) (V c main_arg17) (V c main_arg16) (V c main_v43) (V c main_v24) y (((cfg2.win 9).blk t).view.emb y) (fun q => ?_) (fun q => ?_) ?_
  · show V c main_v43 (((cfg2.win 0).blk t).view.emb (ix2 (y 0 : Fin 5000) q)) = V c main_v43 (ix2 ((((cfg2.win 9).blk t).view.emb y) 0 : Fin 50000) q)
    refine congrArg _ (funext fun a => Fin.ext ?_)
    match a with
    | ⟨0, _⟩ => show win2_0.index t (0 : Fin 2) * 5000 + 1 * (y 0).val = win2_9.index t (0 : Fin 2) * 5000 + 1 * (y 0).val; omega
    | ⟨1, _⟩ => show win2_0.index t (1 : Fin 2) * 128 + 1 * q.val = q.val; omega
  · show V c main_v24 (((cfg2.win 1).blk t).view.emb (ix2 (y 0 : Fin 5000) q)) = V c main_v24 (ix2 ((((cfg2.win 9).blk t).view.emb y) 0 : Fin 50000) q)
    refine congrArg _ (funext fun a => Fin.ext ?_)
    match a with
    | ⟨0, _⟩ => show win2_1.index t (0 : Fin 2) * 5000 + 1 * (y 0).val = win2_9.index t (0 : Fin 2) * 5000 + 1 * (y 0).val; omega
    | ⟨1, _⟩ => show win2_1.index t (1 : Fin 2) * 128 + 1 * q.val = q.val; omega
  · refine Fin.ext ?_
    show (y 1).val = win2_9.index t (1 : Fin 2) * 128 + 1 * (y 1).val
    omega

/-- An index of the output array is in point `t`'s block iff each coordinate is in the block's range. -/
theorem mem_blk2 (t : Fin cfg2.N) (i : S50000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v44).slice (win2_9.rect t)).set ↔ _
  rw [View.set_slice_whole, Rect.mem_set_unit]
  exact Iff.rfl

/-- Every row lies in the block of the point numbered by the row's quotient by 5000. -/
theorem cover2 (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_9 _, ?_⟩
  rw [mem_blk2]
  obtain ⟨e0, e1, e2, e3, e4, e5, e6, e7, e8, e9, e10, e11, e12, e13, e14⟩ := idx_facts2 ⟨(i 0).val / 5000, by rw [hN]; omega⟩
  intro a
  match a with
  | ⟨0, _⟩ =>
    show win2_9.index _ (0 : Fin 2) * 5000 ≤ (i 0).val ∧ (i 0).val < win2_9.index _ (0 : Fin 2) * 5000 + 5000
    rw [e13]
    show (i 0).val / 5000 * 5000 ≤ (i 0).val ∧ (i 0).val < (i 0).val / 5000 * 5000 + 5000
    omega
  | ⟨1, _⟩ =>
    show win2_9.index _ (1 : Fin 2) * 128 ≤ (i 1).val ∧ (i 1).val < win2_9.index _ (1 : Fin 2) * 128 + 128
    rw [e14]
    omega

/-- The graph-convolution kernel of region 2 leaves the layer of its nine arrays. -/
theorem final2 (c : Dev nD) :
    (dat2 (F := Ideal) V c).arrAt 9 cfg2.N = Cert.Net.sage (V c main_v43) (V c main_v24) (V c main_arg12) (V c main_arg14)
      (V c main_arg13) (V c main_arg15) (V c main_arg16) (V c main_arg17) (V c main_arg18) :=
  (dat2 (F := Ideal) V c).arrAt_eq_of_cover 9 _ (fun t _ => flushed2_eq V c t) cover2

/-! ## Region 3 -/

/-- The printed index maps over the ten grid points: a block of rows sits at the point's number, every other
    window and every column index at zero. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 2) = 0
    ∧ win3_4.index t (1 : Fin 2) = 0
    ∧ win3_5.index t (0 : Fin 1) = 0
    ∧ win3_6.index t (0 : Fin 1) = 0
    ∧ win3_7.index t (0 : Fin 1) = 0
    ∧ win3_8.index t (0 : Fin 1) = 0
    ∧ win3_9.index t (0 : Fin 2) = t.val
    ∧ win3_9.index t (1 : Fin 2) = 0 :=
  (by decide +kernel : ∀ t : Fin grid3.N, _)

set_option maxHeartbeats 4000000 in
/-- What point `t` writes back is block `t` of the layer of the whole arrays. -/
theorem flushed3_eq (c : Dev nD) (t : Fin cfg3.N) :
    (dat3 (F := Ideal) V c).flushed 9 t = ((cfg3.win 9).blk t).view.read (Elt Ideal) (Cert.Net.sage (V c main_v63) (V c main_v44) (V c main_arg19) (V c main_arg21) (V c main_arg20) (V c main_arg22) (V c main_arg23) (V c main_arg24) (V c main_arg25)) := by
  show (cfg3.win 9).cut (grid3.coords t) ((dat3 (F := Ideal) V c).after 9 t) = _
  rw [after3_9]
  unfold out3_9
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10, e11, e12, e13, e14⟩ := idx_facts3 t
  have hw2 : iblk3 V c 2 t = V c main_arg19 := by
    funext z
    show V c main_arg19 (((cfg3.win 2).blk t).view.emb z) = V c main_arg19 z
    refine congrArg _ (funext fun a => Fin.ext ?_)
    match a with
    | ⟨0, _⟩ => show win3_2.index t (0 : Fin 2) * 128 + 1 * (z 0).val = (z 0).val; omega
    | ⟨1, _⟩ => show win3_2.index t (1 : Fin 2) * 128 + 1 * (z 1).val = (z 1).val; omega
  have hw3 : iblk3 V c 3 t = V c main_arg20 := by
    funext z
    show V c main_arg20 (((cfg3.win 3).blk t).view.emb z) = V c main_arg20 z
    refine congrArg _ (funext fun a => Fin.ext ?_)
    match a with
    | ⟨0, _⟩ => show win3_3.index t (0 : Fin 1) * 128 + 1 * (z 0).val = (z 0).val; omega
  have hw4 : iblk3 V c 4 t = V c main_arg21 := by
    funext z
    show V c main_arg21 (((cfg3.win 4).blk t).view.emb z) = V c main_arg21 z
    refine congrArg _ (funext fun a => Fin.ext ?_)
    match a with
    | ⟨0, _⟩ => show win3_4.index t (0 : Fin 2) * 128 + 1 * (z 0).val = (z 0).val; omega
    | ⟨1, _⟩ => show win3_4.index t (1 : Fin 2) * 128 + 1 * (z 1).val = (z 1).val; omega
  have hw5 : iblk3 V c 5 t = V c main_arg22 := by
    funext z
    show V c main_arg22 (((cfg3.win 5).blk t).view.emb z) = V c main_arg22 z
    refine congrArg _ (funext fun a => Fin.ext ?_)
    match a with
    | ⟨0, _⟩ => show win3_5.index t (0 : Fin 1) * 128 + 1 * (z 0).val = (z 0).val; omega
  have hw6 : iblk3 V c 6 t = V c main_arg23 := by
    funext z
    show V c main_arg23 (((cfg3.win 6).blk t).view.emb z) = V c main_arg23 z
    refine congrArg _ (funext fun a => Fin.ext ?_)
    match a with
    | ⟨0, _⟩ => show win3_6.index t (0 : Fin 1) * 128 + 1 * (z 0).val = (z 0).val; omega
  have hw7 : iblk3 V c 7 t = V c main_arg24 := by
    funext z
    show V c main_arg24 (((cfg3.win 7).blk t).view.emb z) = V c main_arg24 z
    refine congrArg _ (funext fun a => Fin.ext ?_)
    match a with
    | ⟨0, _⟩ => show win3_7.index t (0 : Fin 1) * 128 + 1 * (z 0).val = (z 0).val; omega
  have hw8 : iblk3 V c 8 t = V c main_arg25 := by
    funext z
    show V c main_arg25 (((cfg3.win 8).blk t).view.emb z) = V c main_arg25 z
    refine congrArg _ (funext fun a => Fin.ext ?_)
    match a with
    | ⟨0, _⟩ => show win3_8.index t (0 : Fin 1) * 128 + 1 * (z 0).val = (z 0).val; omega
  rw [hw2, hw3, hw4, hw5, hw6, hw7, hw8]
  funext y
  refine block_sage3 (iblk3 V c 0 t) (iblk3 V c 1 t) (V c main_arg19) (V c main_arg21) (V c main_arg20) (V c main_arg22) (V c main_arg25) (V c main_arg24) (V c main_arg23) (V c main_v63) (V c main_v44) y (((cfg3.win 9).blk t).view.emb y) (fun q => ?_) (fun q => ?_) ?_
  · show V c main_v63 (((cfg3.win 0).blk t).view.emb (ix2 (y 0 : Fin 5000) q)) = V c main_v63 (ix2 ((((cfg3.win 9).blk t).view.emb y) 0 : Fin 50000) q)
    refine congrArg _ (funext fun a => Fin.ext ?_)
    match a with
    | ⟨0, _⟩ => show win3_0.index t (0 : Fin 2) * 5000 + 1 * (y 0).val = win3_9.index t (0 : Fin 2) * 5000 + 1 * (y 0).val; omega
    | ⟨1, _⟩ => show win3_0.index t (1 : Fin 2) * 128 + 1 * q.val = q.val; omega
  · show V c main_v44 (((cfg3.win 1).blk t).view.emb (ix2 (y 0 : Fin 5000) q)) = V c main_v44 (ix2 ((((cfg3.win 9).blk t).view.emb y) 0 : Fin 50000) q)
    refine congrArg _ (funext fun a => Fin.ext ?_)
    match a with
    | ⟨0, _⟩ => show win3_1.index t (0 : Fin 2) * 5000 + 1 * (y 0).val = win3_9.index t (0 : Fin 2) * 5000 + 1 * (y 0).val; omega
    | ⟨1, _⟩ => show win3_1.index t (1 : Fin 2) * 128 + 1 * q.val = q.val; omega
  · refine Fin.ext ?_
    show (y 1).val = win3_9.index t (1 : Fin 2) * 128 + 1 * (y 1).val
    omega

/-- An index of the output array is in point `t`'s block iff each coordinate is in the block's range. -/
theorem mem_blk3 (t : Fin cfg3.N) (i : S50000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v64).slice (win3_9.rect t)).set ↔ _
  rw [View.set_slice_whole, Rect.mem_set_unit]
  exact Iff.rfl

/-- Every row lies in the block of the point numbered by the row's quotient by 5000. -/
theorem cover3 (i : S50000x128.Idx) :
    ∃ t : Fin cfg3.N, (cfg3.win 9).flush t = true ∧ i ∈ ((cfg3.win 9).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_9 _, ?_⟩
  rw [mem_blk3]
  obtain ⟨e0, e1, e2, e3, e4, e5, e6, e7, e8, e9, e10, e11, e12, e13, e14⟩ := idx_facts3 ⟨(i 0).val / 5000, by rw [hN]; omega⟩
  intro a
  match a with
  | ⟨0, _⟩ =>
    show win3_9.index _ (0 : Fin 2) * 5000 ≤ (i 0).val ∧ (i 0).val < win3_9.index _ (0 : Fin 2) * 5000 + 5000
    rw [e13]
    show (i 0).val / 5000 * 5000 ≤ (i 0).val ∧ (i 0).val < (i 0).val / 5000 * 5000 + 5000
    omega
  | ⟨1, _⟩ =>
    show win3_9.index _ (1 : Fin 2) * 128 ≤ (i 1).val ∧ (i 1).val < win3_9.index _ (1 : Fin 2) * 128 + 128
    rw [e14]
    omega

/-- The graph-convolution kernel of region 3 leaves the layer of its nine arrays. -/
theorem final3 (c : Dev nD) :
    (dat3 (F := Ideal) V c).arrAt 9 cfg3.N = Cert.Net.sage (V c main_v63) (V c main_v44) (V c main_arg19) (V c main_arg21)
      (V c main_arg20) (V c main_arg22) (V c main_arg23) (V c main_arg24) (V c main_arg25) :=
  (dat3 (F := Ideal) V c).arrAt_eq_of_cover 9 _ (fun t _ => flushed3_eq V c t) cover3

/-! ## Region 4 -/

/-- The classifier's grid has one point; every window's block is its whole array. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0 :=
  (by decide +kernel : ∀ t : Fin grid4.N, _)

/-- What the one point writes back is the classifier of the whole arrays. -/
theorem flushed4_eq (c : Dev nD) (t : Fin cfg4.N) :
    (dat4 (F := Ideal) V c).flushed 5 t = ((cfg4.win 5).blk t).view.read (Elt Ideal)
      (Cert.Net.head (V c main_v76) (V c main_arg26) (V c main_arg27) (V c main_arg28) (V c main_arg29)) := by
  show (cfg4.win 5).cut (grid4.coords t) ((dat4 (F := Ideal) V c).after 5 t) = _
  rw [after4_5]
  unfold out4_5
  rw [View.canon_unit_zero hz2]
  simp only [View.ld_unit_zero (S := S512x128) hz2, View.ld_unit_zero (S := S128x128) hz2, View.ld_unit_zero (S := S128) hz1,
    View.ld_unit_zero (S := S128x10) hz2, View.ld_unit_zero (S := S10) hz1]
  obtain ⟨e0, e1, e2, e3, e4, e5, e6, e7, e8, e9⟩ := idx_facts4 t
  have hw0 : iblk4 V c 0 t = V c main_v76 := by
    funext z
    show V c main_v76 (((cfg4.win 0).blk t).view.emb z) = V c main_v76 z
    refine congrArg _ (funext fun a => Fin.ext ?_)
    match a with
    | ⟨0, _⟩ => show win4_0.index t (0 : Fin 2) * 512 + 1 * (z 0).val = (z 0).val; omega
    | ⟨1, _⟩ => show win4_0.index t (1 : Fin 2) * 128 + 1 * (z 1).val = (z 1).val; omega
  have hw1 : iblk4 V c 1 t = V c main_arg26 := by
    funext z
    show V c main_arg26 (((cfg4.win 1).blk t).view.emb z) = V c main_arg26 z
    refine congrArg _ (funext fun a => Fin.ext ?_)
    match a with
    | ⟨0, _⟩ => show win4_1.index t (0 : Fin 2) * 128 + 1 * (z 0).val = (z 0).val; omega
    | ⟨1, _⟩ => show win4_1.index t (1 : Fin 2) * 128 + 1 * (z 1).val = (z 1).val; omega
  have hw2 : iblk4 V c 2 t = V c main_arg27 := by
    funext z
    show V c main_arg27 (((cfg4.win 2).blk t).view.emb z) = V c main_arg27 z
    refine congrArg _ (funext fun a => Fin.ext ?_)
    match a with
    | ⟨0, _⟩ => show win4_2.index t (0 : Fin 1) * 128 + 1 * (z 0).val = (z 0).val; omega
  have hw3 : iblk4 V c 3 t = V c main_arg28 := by
    funext z
    show V c main_arg28 (((cfg4.win 3).blk t).view.emb z) = V c main_arg28 z
    refine congrArg _ (funext fun a => Fin.ext ?_)
    match a with
    | ⟨0, _⟩ => show win4_3.index t (0 : Fin 2) * 128 + 1 * (z 0).val = (z 0).val; omega
    | ⟨1, _⟩ => show win4_3.index t (1 : Fin 2) * 10 + 1 * (z 1).val = (z 1).val; omega
  have hw4 : iblk4 V c 4 t = V c main_arg29 := by
    funext z
    show V c main_arg29 (((cfg4.win 4).blk t).view.emb z) = V c main_arg29 z
    refine congrArg _ (funext fun a => Fin.ext ?_)
    match a with
    | ⟨0, _⟩ => show win4_4.index t (0 : Fin 1) * 10 + 1 * (z 0).val = (z 0).val; omega
  rw [hw0, hw1, hw2, hw3, hw4]
  funext y
  have he : ((cfg4.win 5).blk t).view.emb y = y := by
    refine funext fun a => Fin.ext ?_
    match a with
    | ⟨0, _⟩ => show win4_5.index t (0 : Fin 2) * 512 + 1 * (y 0).val = (y 0).val; omega
    | ⟨1, _⟩ => show win4_5.index t (1 : Fin 2) * 10 + 1 * (y 1).val = (y 1).val; omega
  show k4_pay1 (F := Ideal) (V c main_v76) (V c main_arg26) (V c main_arg27) (V c main_arg28) (V c main_arg29) y
    = Cert.Net.head (V c main_v76) (V c main_arg26) (V c main_arg27) (V c main_arg28) (V c main_arg29) (((cfg4.win 5).blk t).view.emb y)
  rw [he, eq_ix2 y]
  exact pay4 _ _ _ _ _ _ _

/-- An index of the output array is in the point's block iff each coordinate is in the block's range. -/
theorem mem_blk4 (t : Fin cfg4.N) (i : S512x10.Idx) :
    i ∈ ((cfg4.win 5).blk t).view.set ↔ ∀ a : Fin 2, win4_5.index t a * S512x10.size a ≤ (i a).val ∧ (i a).val < win4_5.index t a * S512x10.size a + S512x10.size a := by
  show i ∈ ((View.whole main_v77).slice (win4_5.rect t)).set ↔ _
  rw [View.set_slice_whole, Rect.mem_set_unit]
  exact Iff.rfl

/-- The one block is the whole array. -/
theorem cover4 (i : S512x10.Idx) :
    ∃ t : Fin cfg4.N, (cfg4.win 5).flush t = true ∧ i ∈ ((cfg4.win 5).blk t).view.set := by
  have hi0 : (i 0).val < 512 := (i 0).isLt
  have hi1 : (i 1).val < 10 := (i 1).isLt
  have hN : cfg4.N = 1 := N_4
  refine ⟨⟨0, by rw [hN]; omega⟩, flush4_5 _, ?_⟩
  rw [mem_blk4]
  obtain ⟨e0, e1, e2, e3, e4, e5, e6, e7, e8, e9⟩ := idx_facts4 ⟨0, by rw [hN]; omega⟩
  intro a
  match a with
  | ⟨0, _⟩ =>
    show win4_5.index _ (0 : Fin 2) * 512 ≤ (i 0).val ∧ (i 0).val < win4_5.index _ (0 : Fin 2) * 512 + 512
    rw [e8]; omega
  | ⟨1, _⟩ =>
    show win4_5.index _ (1 : Fin 2) * 10 ≤ (i 1).val ∧ (i 1).val < win4_5.index _ (1 : Fin 2) * 10 + 10
    rw [e9]; omega

/-- The classifier's kernel leaves the two-layer classifier of its five arrays. -/
theorem final4 (c : Dev nD) :
    (dat4 (F := Ideal) V c).arrAt 5 cfg4.N = Cert.Net.head (V c main_v76) (V c main_arg26) (V c main_arg27)
      (V c main_arg28) (V c main_arg29) :=
  (dat4 (F := Ideal) V c).arrAt_eq_of_cover 5 _ (fun t _ => flushed4_eq V c t) cover4

end Cert.KernelIdeal.Val

end
-- ==== Proof.Shared.lean ====
/-
  The two irregular steps of the network, each as ONE function that both programs apply.

  * `aggV h src dst` — the mean of the neighbours' features: every edge (src e → dst e) carries row `src e` of `h`
    (a negative source counted from the end) to node `dst e`, where the rows are added up; the sum at a node is
    divided by the number of edges arriving there, or by one where none does.
  * `poolV h batch` — the mean of the node features over each graph of the batch, formed the same way from the
    nodes' graph numbers.
  * `srcOf e`, `dstOf e` — the two rows of the edge list.

  Both programs compute these with the same host operations on the same operands, so the comparison never opens
  them: it only needs that equal features go in.
-/
import proofs.«153138_j47364899340883_1_alg».proof.ReferenceIdeal
import Idealize.ShloMosaic.PureOps.Ideal

noncomputable section

namespace Cert.Net

open Cert.ReferenceIdeal Idealize.ShloMosaic

variable [Cert.ReferenceIdeal.Facts]

open Cert.ReferenceIdeal.Facts₀ Cert.ReferenceIdeal.Facts

/-- The edges' source nodes: row 0 of the edge list. -/
def srcOf (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edges' target nodes: row 1 of the edge list. -/
def dstOf (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The mean of the neighbours' features at every node. -/
def aggV (h : (⟨S50000x128, .f32⟩ : BufTy).Contents (Elt Ideal)) (src dst : (⟨S1600000, .i32⟩ : BufTy).Contents (Elt Ideal)) :
    (⟨S50000x128, .f32⟩ : BufTy).Contents (Elt Ideal) :=
  Host.divf (F := Ideal)
    (Host.scatterAdd (F := Ideal) scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 dst)
      (Host.gather gather_S50000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))))
    (broadcastInDim S50000x128 ![0, 1] bcast_S50000x1_S50000x128_0_1
      (broadcastInDim S50000x1 ![0] bcast_S50000_S50000x1_0
        (maximumf (F := Ideal)
          (Host.scatterAdd (F := Ideal) scatter_S50000_S1600000x1_S1600000_n_0_0_1
            (broadcastInDim S50000 ![] bcast_S_S50000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S50000 ![] bcast_S_S50000 (constant (F := Ideal) S_ .f32 0x3F800000#32)))))

/-- The mean of the node features over each graph. -/
def poolV (h : (⟨S50000x128, .f32⟩ : BufTy).Contents (Elt Ideal)) (batch : (⟨S50000, .i32⟩ : BufTy).Contents (Elt Ideal)) :
    (⟨S512x128, .f32⟩ : BufTy).Contents (Elt Ideal) :=
  Host.divf (F := Ideal)
    (Host.scatterAdd (F := Ideal) scatter_S512x128_S50000x1_S50000x128_1_0_0_1
      (broadcastInDim S512x128 ![] bcast_S_S512x128 (constant (F := Ideal) S_ .f32 0x00000000#32))
      (broadcastInDim S50000x1 ![0] bcast_S50000_S50000x1_0 batch) h)
    (broadcastInDim S512x128 ![0, 1] bcast_S512x1_S512x128_0_1
      (broadcastInDim S512x1 ![0] bcast_S512_S512x1_0
        (maximumf (F := Ideal)
          (Host.scatterAdd (F := Ideal) scatter_S512_S50000x1_S50000_n_0_0_1
            (broadcastInDim S512 ![] bcast_S_S512 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S512 ![] bcast_S_S512 (constant (F := Ideal) S_ .f32 0x3F800000#32)))))

end Cert.Net

end
-- ==== Proof.Net.lean ====
/-
  The whole network as functions of its argument arrays.

  `embed` is the input layer; `layer` one round of message passing (aggregate the neighbours' features, then the
  normalised, rectified graph-convolution layer of LibNormedLayers); `classify` pools the node features per graph and applies
  the two-layer classifier. `net1`, `net2`, `net3` are the node features after one, two and three rounds, and
  `netOut` the class scores: the four arrays both programs return.
-/
import proofs.«153138_j47364899340883_1_alg».proof.Proof.LibNormedLayers
import proofs.«153138_j47364899340883_1_alg».proof.Proof.Shared

noncomputable section

namespace Cert.Net

open Cert.ReferenceIdeal Idealize.ShloMosaic

variable [Cert.ReferenceIdeal.Facts]

/-- The input layer: `x · w + b`. -/
def embed (x : (⟨S50000x128, .f32⟩ : BufTy).Contents (Elt Ideal)) (w : (⟨S128x128, .f32⟩ : BufTy).Contents (Elt Ideal)) (b : (⟨S128, .f32⟩ : BufTy).Contents (Elt Ideal)) :
    (⟨S50000x128, .f32⟩ : BufTy).Contents (Elt Ideal) :=
  lin x w b

/-- One round of message passing on the node features `h` along the edges `e`. -/
def layer (h : (⟨S50000x128, .f32⟩ : BufTy).Contents (Elt Ideal)) (e : (⟨S2x1600000, .i32⟩ : BufTy).Contents (Elt Ideal))
    (wl : (⟨S128x128, .f32⟩ : BufTy).Contents (Elt Ideal)) (bl : (⟨S128, .f32⟩ : BufTy).Contents (Elt Ideal)) (wr : (⟨S128x128, .f32⟩ : BufTy).Contents (Elt Ideal))
    (g bb bm bv : (⟨S128, .f32⟩ : BufTy).Contents (Elt Ideal)) : (⟨S50000x128, .f32⟩ : BufTy).Contents (Elt Ideal) :=
  sage (aggV h (srcOf e) (dstOf e)) h wl wr bl g bb bm bv

/-- The per-graph mean of the node features, then the two-layer classifier. -/
def classify (h : (⟨S50000x128, .f32⟩ : BufTy).Contents (Elt Ideal)) (batch : (⟨S50000, .i32⟩ : BufTy).Contents (Elt Ideal))
    (w1 : (⟨S128x128, .f32⟩ : BufTy).Contents (Elt Ideal)) (b1 : (⟨S128, .f32⟩ : BufTy).Contents (Elt Ideal)) (w2 : (⟨S128x10, .f32⟩ : BufTy).Contents (Elt Ideal)) (b2 : (⟨S10, .f32⟩ : BufTy).Contents (Elt Ideal)) :
    (⟨S512x10, .f32⟩ : BufTy).Contents (Elt Ideal) :=
  head (poolV h batch) w1 b1 w2 b2

end Cert.Net

end
-- ==== Proof.KernelFold.lean ====
/-
  The contents of the kernel program's buffers, boundary by boundary, as the network's layers of the argument arrays.

  @main alternates stretches of host operations with the five kernels. The buffer contents at each boundary are a fold
  from the launch memory: a host stretch rewrites the buffers its operations write, a kernel rewrites its output array,
  and every other buffer keeps what it held. Reading the fold at the buffers that matter gives

  * after the first kernel, the input layer of the node features;
  * after each of the three graph-convolution kernels, one round of message passing on the previous node features —
    the host stretch before the kernel forms the neighbour mean along the two rows of the edge list, which the first
    stretch cut out of the edge-list argument, and the kernel applies the normalised, rectified layer to it;
  * after the last kernel, the classifier of the per-graph mean that the last host stretch forms;

  and the three intermediate node-feature arrays, once written, stay as they are to the end.
-/
import proofs.«153138_j47364899340883_1_alg».proof.Proof.Finals
import proofs.«153138_j47364899340883_1_alg».proof.Proof.Net

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- A buffer that no operation of a host stretch writes keeps its contents across the stretch: the stretch's list of
    operations is opened, each operation's written buffer read off, and the buffer told apart from each. -/
macro "host_skip " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What each host stretch computes, from any contents it finds

The operations of a stretch are composed along the buffers that carry one's result to the next; what is left is a
term over the contents found at the buffers the stretch only reads. -/

section Host

variable [Cert.ReferenceIdeal.Facts]

/-- The first stretch cuts row 0 out of the edge list: the edges' sources. -/
theorem host0_src (V : Valuation τ sig (Elt Ideal)) :
    StableHlo.after hostOps0 V (Proc.devRef .tc main_v1) = Cert.Net.srcOf (V (Proc.devRef .tc main_arg1)) := by
  simp only [hostOps0]
  after_results
  rfl

/-- And row 1: the edges' targets. -/
theorem host0_dst (V : Valuation τ sig (Elt Ideal)) :
    StableHlo.after hostOps0 V (Proc.devRef .tc main_v3) = Cert.Net.dstOf (V (Proc.devRef .tc main_arg1)) := by
  simp only [hostOps0]
  after_results
  rfl

/-- The second stretch forms the neighbour mean of the node features it finds, along the sources and targets it finds. -/
theorem host1_agg (V : Valuation τ sig (Elt Ideal)) :
    StableHlo.after hostOps1 V (Proc.devRef .tc main_v23)
      = Cert.Net.aggV (V (Proc.devRef .tc main_v4)) (V (Proc.devRef .tc main_v1)) (V (Proc.devRef .tc main_v3)) := by
  simp only [hostOps1]
  after_results_simp
  rfl

/-- The third stretch forms the neighbour mean of the node features it finds, along the sources and targets it finds. -/
theorem host2_agg (V : Valuation τ sig (Elt Ideal)) :
    StableHlo.after hostOps2 V (Proc.devRef .tc main_v43)
      = Cert.Net.aggV (V (Proc.devRef .tc main_v24)) (V (Proc.devRef .tc main_v1)) (V (Proc.devRef .tc main_v3)) := by
  simp only [hostOps2]
  after_results_simp
  rfl

/-- The fourth stretch forms the neighbour mean of the node features it finds, along the sources and targets it finds. -/
theorem host3_agg (V : Valuation τ sig (Elt Ideal)) :
    StableHlo.after hostOps3 V (Proc.devRef .tc main_v63)
      = Cert.Net.aggV (V (Proc.devRef .tc main_v44)) (V (Proc.devRef .tc main_v1)) (V (Proc.devRef .tc main_v3)) := by
  simp only [hostOps3]
  after_results_simp
  rfl

/-- The last stretch forms the per-graph mean of the node features it finds, over the graph numbers it finds. -/
theorem host4_pool (V : Valuation τ sig (Elt Ideal)) :
    StableHlo.after hostOps4 V (Proc.devRef .tc main_v76) = Cert.Net.poolV (V (Proc.devRef .tc main_v64)) (V (Proc.devRef .tc main_arg2)) := by
  simp only [hostOps4]
  after_results_simp
  rfl

end Host

/-! ## The arguments where they are read

No host operation and no kernel writes an argument array, and before the kernel that reads it none has it among its
arrays: at the boundary where it is read it holds what it was launched with. -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_skip hostOps0
    _ = m ((c : Thread nD τ).loc main_arg0) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_skip hostOps0
    _ = m ((c : Thread nD τ).loc main_arg3) := rfl

theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_skip hostOps0
    _ = m ((c : Thread nD τ).loc main_arg4) := rfl

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by host_skip hostOps0
    _ = m ((c : Thread nD τ).loc main_arg1) := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by host_skip hostOps1
    _ = W1 m ρ c (Proc.devRef .tc main_arg5) := W2_of_ne m ρ c main_arg5 (by decide)
    _ = W0 m ρ c (Proc.devRef .tc main_arg5) := by host_skip hostOps0
    _ = m ((c : Thread nD τ).loc main_arg5) := rfl

theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by host_skip hostOps1
    _ = W1 m ρ c (Proc.devRef .tc main_arg6) := W2_of_ne m ρ c main_arg6 (by decide)
    _ = W0 m ρ c (Proc.devRef .tc main_arg6) := by host_skip hostOps0
    _ = m ((c : Thread nD τ).loc main_arg6) := rfl

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by host_skip hostOps1
    _ = W1 m ρ c (Proc.devRef .tc main_arg7) := W2_of_ne m ρ c main_arg7 (by decide)
    _ = W0 m ρ c (Proc.devRef .tc main_arg7) := by host_skip hostOps0
    _ = m ((c : Thread nD τ).loc main_arg7) := rfl

theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by host_skip hostOps1
    _ = W1 m ρ c (Proc.devRef .tc main_arg8) := W2_of_ne m ρ c main_arg8 (by decide)
    _ = W0 m ρ c (Proc.devRef .tc main_arg8) := by host_skip hostOps0
    _ = m ((c : Thread nD τ).loc main_arg8) := rfl

theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by host_skip hostOps1
    _ = W1 m ρ c (Proc.devRef .tc main_arg9) := W2_of_ne m ρ c main_arg9 (by decide)
    _ = W0 m ρ c (Proc.devRef .tc main_arg9) := by host_skip hostOps0
    _ = m ((c : Thread nD τ).loc main_arg9) := rfl

theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by host_skip hostOps1
    _ = W1 m ρ c (Proc.devRef .tc main_arg10) := W2_of_ne m ρ c main_arg10 (by decide)
    _ = W0 m ρ c (Proc.devRef .tc main_arg10) := by host_skip hostOps0
    _ = m ((c : Thread nD τ).loc main_arg10) := rfl

theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by host_skip hostOps1
    _ = W1 m ρ c (Proc.devRef .tc main_arg11) := W2_of_ne m ρ c main_arg11 (by decide)
    _ = W0 m ρ c (Proc.devRef .tc main_arg11) := by host_skip hostOps0
    _ = m ((c : Thread nD τ).loc main_arg11) := rfl

theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := by host_skip hostOps2
    _ = W3 m ρ c (Proc.devRef .tc main_arg12) := W4_of_ne m ρ c main_arg12 (by decide)
    _ = W2 m ρ c (Proc.devRef .tc main_arg12) := by host_skip hostOps1
    _ = W1 m ρ c (Proc.devRef .tc main_arg12) := W2_of_ne m ρ c main_arg12 (by decide)
    _ = W0 m ρ c (Proc.devRef .tc main_arg12) := by host_skip hostOps0
    _ = m ((c : Thread nD τ).loc main_arg12) := rfl

theorem W5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := by host_skip hostOps2
    _ = W3 m ρ c (Proc.devRef .tc main_arg13) := W4_of_ne m ρ c main_arg13 (by decide)
    _ = W2 m ρ c (Proc.devRef .tc main_arg13) := by host_skip hostOps1
    _ = W1 m ρ c (Proc.devRef .tc main_arg13) := W2_of_ne m ρ c main_arg13 (by decide)
    _ = W0 m ρ c (Proc.devRef .tc main_arg13) := by host_skip hostOps0
    _ = m ((c : Thread nD τ).loc main_arg13) := rfl

theorem W5_arg14 (c : Dev nD) : W5 m ρ c (Proc.devRef .tc main_arg14) = m ((c : Thread nD τ).loc main_arg14) :=
  calc W5 m ρ c (Proc.devRef .tc main_arg14)
    _ = W4 m ρ c (Proc.devRef .tc main_arg14) := by host_skip hostOps2
    _ = W3 m ρ c (Proc.devRef .tc main_arg14) := W4_of_ne m ρ c main_arg14 (by decide)
    _ = W2 m ρ c (Proc.devRef .tc main_arg14) := by host_skip hostOps1
    _ = W1 m ρ c (Proc.devRef .tc main_arg14) := W2_of_ne m ρ c main_arg14 (by decide)
    _ = W0 m ρ c (Proc.devRef .tc main_arg14) := by host_skip hostOps0
    _ = m ((c : Thread nD τ).loc main_arg14) := rfl

theorem W5_arg15 (c : Dev nD) : W5 m ρ c (Proc.devRef .tc main_arg15) = m ((c : Thread nD τ).loc main_arg15) :=
  calc W5 m ρ c (Proc.devRef .tc main_arg15)
    _ = W4 m ρ c (Proc.devRef .tc main_arg15) := by host_skip hostOps2
    _ = W3 m ρ c (Proc.devRef .tc main_arg15) := W4_of_ne m ρ c main_arg15 (by decide)
    _ = W2 m ρ c (Proc.devRef .tc main_arg15) := by host_skip hostOps1
    _ = W1 m ρ c (Proc.devRef .tc main_arg15) := W2_of_ne m ρ c main_arg15 (by decide)
    _ = W0 m ρ c (Proc.devRef .tc main_arg15) := by host_skip hostOps0
    _ = m ((c : Thread nD τ).loc main_arg15) := rfl

theorem W5_arg16 (c : Dev nD) : W5 m ρ c (Proc.devRef .tc main_arg16) = m ((c : Thread nD τ).loc main_arg16) :=
  calc W5 m ρ c (Proc.devRef .tc main_arg16)
    _ = W4 m ρ c (Proc.devRef .tc main_arg16) := by host_skip hostOps2
    _ = W3 m ρ c (Proc.devRef .tc main_arg16) := W4_of_ne m ρ c main_arg16 (by decide)
    _ = W2 m ρ c (Proc.devRef .tc main_arg16) := by host_skip hostOps1
    _ = W1 m ρ c (Proc.devRef .tc main_arg16) := W2_of_ne m ρ c main_arg16 (by decide)
    _ = W0 m ρ c (Proc.devRef .tc main_arg16) := by host_skip hostOps0
    _ = m ((c : Thread nD τ).loc main_arg16) := rfl

theorem W5_arg17 (c : Dev nD) : W5 m ρ c (Proc.devRef .tc main_arg17) = m ((c : Thread nD τ).loc main_arg17) :=
  calc W5 m ρ c (Proc.devRef .tc main_arg17)
    _ = W4 m ρ c (Proc.devRef .tc main_arg17) := by host_skip hostOps2
    _ = W3 m ρ c (Proc.devRef .tc main_arg17) := W4_of_ne m ρ c main_arg17 (by decide)
    _ = W2 m ρ c (Proc.devRef .tc main_arg17) := by host_skip hostOps1
    _ = W1 m ρ c (Proc.devRef .tc main_arg17) := W2_of_ne m ρ c main_arg17 (by decide)
    _ = W0 m ρ c (Proc.devRef .tc main_arg17) := by host_skip hostOps0
    _ = m ((c : Thread nD τ).loc main_arg17) := rfl

theorem W5_arg18 (c : Dev nD) : W5 m ρ c (Proc.devRef .tc main_arg18) = m ((c : Thread nD τ).loc main_arg18) :=
  calc W5 m ρ c (Proc.devRef .tc main_arg18)
    _ = W4 m ρ c (Proc.devRef .tc main_arg18) := by host_skip hostOps2
    _ = W3 m ρ c (Proc.devRef .tc main_arg18) := W4_of_ne m ρ c main_arg18 (by decide)
    _ = W2 m ρ c (Proc.devRef .tc main_arg18) := by host_skip hostOps1
    _ = W1 m ρ c (Proc.devRef .tc main_arg18) := W2_of_ne m ρ c main_arg18 (by decide)
    _ = W0 m ρ c (Proc.devRef .tc main_arg18) := by host_skip hostOps0
    _ = m ((c : Thread nD τ).loc main_arg18) := rfl

theorem W7_arg19 (c : Dev nD) : W7 m ρ c (Proc.devRef .tc main_arg19) = m ((c : Thread nD τ).loc main_arg19) :=
  calc W7 m ρ c (Proc.devRef .tc main_arg19)
    _ = W6 m ρ c (Proc.devRef .tc main_arg19) := by host_skip hostOps3
    _ = W5 m ρ c (Proc.devRef .tc main_arg19) := W6_of_ne m ρ c main_arg19 (by decide)
    _ = W4 m ρ c (Proc.devRef .tc main_arg19) := by host_skip hostOps2
    _ = W3 m ρ c (Proc.devRef .tc main_arg19) := W4_of_ne m ρ c main_arg19 (by decide)
    _ = W2 m ρ c (Proc.devRef .tc main_arg19) := by host_skip hostOps1
    _ = W1 m ρ c (Proc.devRef .tc main_arg19) := W2_of_ne m ρ c main_arg19 (by decide)
    _ = W0 m ρ c (Proc.devRef .tc main_arg19) := by host_skip hostOps0
    _ = m ((c : Thread nD τ).loc main_arg19) := rfl

theorem W7_arg20 (c : Dev nD) : W7 m ρ c (Proc.devRef .tc main_arg20) = m ((c : Thread nD τ).loc main_arg20) :=
  calc W7 m ρ c (Proc.devRef .tc main_arg20)
    _ = W6 m ρ c (Proc.devRef .tc main_arg20) := by host_skip hostOps3
    _ = W5 m ρ c (Proc.devRef .tc main_arg20) := W6_of_ne m ρ c main_arg20 (by decide)
    _ = W4 m ρ c (Proc.devRef .tc main_arg20) := by host_skip hostOps2
    _ = W3 m ρ c (Proc.devRef .tc main_arg20) := W4_of_ne m ρ c main_arg20 (by decide)
    _ = W2 m ρ c (Proc.devRef .tc main_arg20) := by host_skip hostOps1
    _ = W1 m ρ c (Proc.devRef .tc main_arg20) := W2_of_ne m ρ c main_arg20 (by decide)
    _ = W0 m ρ c (Proc.devRef .tc main_arg20) := by host_skip hostOps0
    _ = m ((c : Thread nD τ).loc main_arg20) := rfl

theorem W7_arg21 (c : Dev nD) : W7 m ρ c (Proc.devRef .tc main_arg21) = m ((c : Thread nD τ).loc main_arg21) :=
  calc W7 m ρ c (Proc.devRef .tc main_arg21)
    _ = W6 m ρ c (Proc.devRef .tc main_arg21) := by host_skip hostOps3
    _ = W5 m ρ c (Proc.devRef .tc main_arg21) := W6_of_ne m ρ c main_arg21 (by decide)
    _ = W4 m ρ c (Proc.devRef .tc main_arg21) := by host_skip hostOps2
    _ = W3 m ρ c (Proc.devRef .tc main_arg21) := W4_of_ne m ρ c main_arg21 (by decide)
    _ = W2 m ρ c (Proc.devRef .tc main_arg21) := by host_skip hostOps1
    _ = W1 m ρ c (Proc.devRef .tc main_arg21) := W2_of_ne m ρ c main_arg21 (by decide)
    _ = W0 m ρ c (Proc.devRef .tc main_arg21) := by host_skip hostOps0
    _ = m ((c : Thread nD τ).loc main_arg21) := rfl

theorem W7_arg22 (c : Dev nD) : W7 m ρ c (Proc.devRef .tc main_arg22) = m ((c : Thread nD τ).loc main_arg22) :=
  calc W7 m ρ c (Proc.devRef .tc main_arg22)
    _ = W6 m ρ c (Proc.devRef .tc main_arg22) := by host_skip hostOps3
    _ = W5 m ρ c (Proc.devRef .tc main_arg22) := W6_of_ne m ρ c main_arg22 (by decide)
    _ = W4 m ρ c (Proc.devRef .tc main_arg22) := by host_skip hostOps2
    _ = W3 m ρ c (Proc.devRef .tc main_arg22) := W4_of_ne m ρ c main_arg22 (by decide)
    _ = W2 m ρ c (Proc.devRef .tc main_arg22) := by host_skip hostOps1
    _ = W1 m ρ c (Proc.devRef .tc main_arg22) := W2_of_ne m ρ c main_arg22 (by decide)
    _ = W0 m ρ c (Proc.devRef .tc main_arg22) := by host_skip hostOps0
    _ = m ((c : Thread nD τ).loc main_arg22) := rfl

theorem W7_arg23 (c : Dev nD) : W7 m ρ c (Proc.devRef .tc main_arg23) = m ((c : Thread nD τ).loc main_arg23) :=
  calc W7 m ρ c (Proc.devRef .tc main_arg23)
    _ = W6 m ρ c (Proc.devRef .tc main_arg23) := by host_skip hostOps3
    _ = W5 m ρ c (Proc.devRef .tc main_arg23) := W6_of_ne m ρ c main_arg23 (by decide)
    _ = W4 m ρ c (Proc.devRef .tc main_arg23) := by host_skip hostOps2
    _ = W3 m ρ c (Proc.devRef .tc main_arg23) := W4_of_ne m ρ c main_arg23 (by decide)
    _ = W2 m ρ c (Proc.devRef .tc main_arg23) := by host_skip hostOps1
    _ = W1 m ρ c (Proc.devRef .tc main_arg23) := W2_of_ne m ρ c main_arg23 (by decide)
    _ = W0 m ρ c (Proc.devRef .tc main_arg23) := by host_skip hostOps0
    _ = m ((c : Thread nD τ).loc main_arg23) := rfl

theorem W7_arg24 (c : Dev nD) : W7 m ρ c (Proc.devRef .tc main_arg24) = m ((c : Thread nD τ).loc main_arg24) :=
  calc W7 m ρ c (Proc.devRef .tc main_arg24)
    _ = W6 m ρ c (Proc.devRef .tc main_arg24) := by host_skip hostOps3
    _ = W5 m ρ c (Proc.devRef .tc main_arg24) := W6_of_ne m ρ c main_arg24 (by decide)
    _ = W4 m ρ c (Proc.devRef .tc main_arg24) := by host_skip hostOps2
    _ = W3 m ρ c (Proc.devRef .tc main_arg24) := W4_of_ne m ρ c main_arg24 (by decide)
    _ = W2 m ρ c (Proc.devRef .tc main_arg24) := by host_skip hostOps1
    _ = W1 m ρ c (Proc.devRef .tc main_arg24) := W2_of_ne m ρ c main_arg24 (by decide)
    _ = W0 m ρ c (Proc.devRef .tc main_arg24) := by host_skip hostOps0
    _ = m ((c : Thread nD τ).loc main_arg24) := rfl

theorem W7_arg25 (c : Dev nD) : W7 m ρ c (Proc.devRef .tc main_arg25) = m ((c : Thread nD τ).loc main_arg25) :=
  calc W7 m ρ c (Proc.devRef .tc main_arg25)
    _ = W6 m ρ c (Proc.devRef .tc main_arg25) := by host_skip hostOps3
    _ = W5 m ρ c (Proc.devRef .tc main_arg25) := W6_of_ne m ρ c main_arg25 (by decide)
    _ = W4 m ρ c (Proc.devRef .tc main_arg25) := by host_skip hostOps2
    _ = W3 m ρ c (Proc.devRef .tc main_arg25) := W4_of_ne m ρ c main_arg25 (by decide)
    _ = W2 m ρ c (Proc.devRef .tc main_arg25) := by host_skip hostOps1
    _ = W1 m ρ c (Proc.devRef .tc main_arg25) := W2_of_ne m ρ c main_arg25 (by decide)
    _ = W0 m ρ c (Proc.devRef .tc main_arg25) := by host_skip hostOps0
    _ = m ((c : Thread nD τ).loc main_arg25) := rfl

theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by host_skip hostOps3
    _ = W5 m ρ c (Proc.devRef .tc main_arg2) := W6_of_ne m ρ c main_arg2 (by decide)
    _ = W4 m ρ c (Proc.devRef .tc main_arg2) := by host_skip hostOps2
    _ = W3 m ρ c (Proc.devRef .tc main_arg2) := W4_of_ne m ρ c main_arg2 (by decide)
    _ = W2 m ρ c (Proc.devRef .tc main_arg2) := by host_skip hostOps1
    _ = W1 m ρ c (Proc.devRef .tc main_arg2) := W2_of_ne m ρ c main_arg2 (by decide)
    _ = W0 m ρ c (Proc.devRef .tc main_arg2) := by host_skip hostOps0
    _ = m ((c : Thread nD τ).loc main_arg2) := rfl

theorem W9_arg26 (c : Dev nD) : W9 m ρ c (Proc.devRef .tc main_arg26) = m ((c : Thread nD τ).loc main_arg26) :=
  calc W9 m ρ c (Proc.devRef .tc main_arg26)
    _ = W8 m ρ c (Proc.devRef .tc main_arg26) := by host_skip hostOps4
    _ = W7 m ρ c (Proc.devRef .tc main_arg26) := W8_of_ne m ρ c main_arg26 (by decide)
    _ = W6 m ρ c (Proc.devRef .tc main_arg26) := by host_skip hostOps3
    _ = W5 m ρ c (Proc.devRef .tc main_arg26) := W6_of_ne m ρ c main_arg26 (by decide)
    _ = W4 m ρ c (Proc.devRef .tc main_arg26) := by host_skip hostOps2
    _ = W3 m ρ c (Proc.devRef .tc main_arg26) := W4_of_ne m ρ c main_arg26 (by decide)
    _ = W2 m ρ c (Proc.devRef .tc main_arg26) := by host_skip hostOps1
    _ = W1 m ρ c (Proc.devRef .tc main_arg26) := W2_of_ne m ρ c main_arg26 (by decide)
    _ = W0 m ρ c (Proc.devRef .tc main_arg26) := by host_skip hostOps0
    _ = m ((c : Thread nD τ).loc main_arg26) := rfl

theorem W9_arg27 (c : Dev nD) : W9 m ρ c (Proc.devRef .tc main_arg27) = m ((c : Thread nD τ).loc main_arg27) :=
  calc W9 m ρ c (Proc.devRef .tc main_arg27)
    _ = W8 m ρ c (Proc.devRef .tc main_arg27) := by host_skip hostOps4
    _ = W7 m ρ c (Proc.devRef .tc main_arg27) := W8_of_ne m ρ c main_arg27 (by decide)
    _ = W6 m ρ c (Proc.devRef .tc main_arg27) := by host_skip hostOps3
    _ = W5 m ρ c (Proc.devRef .tc main_arg27) := W6_of_ne m ρ c main_arg27 (by decide)
    _ = W4 m ρ c (Proc.devRef .tc main_arg27) := by host_skip hostOps2
    _ = W3 m ρ c (Proc.devRef .tc main_arg27) := W4_of_ne m ρ c main_arg27 (by decide)
    _ = W2 m ρ c (Proc.devRef .tc main_arg27) := by host_skip hostOps1
    _ = W1 m ρ c (Proc.devRef .tc main_arg27) := W2_of_ne m ρ c main_arg27 (by decide)
    _ = W0 m ρ c (Proc.devRef .tc main_arg27) := by host_skip hostOps0
    _ = m ((c : Thread nD τ).loc main_arg27) := rfl

theorem W9_arg28 (c : Dev nD) : W9 m ρ c (Proc.devRef .tc main_arg28) = m ((c : Thread nD τ).loc main_arg28) :=
  calc W9 m ρ c (Proc.devRef .tc main_arg28)
    _ = W8 m ρ c (Proc.devRef .tc main_arg28) := by host_skip hostOps4
    _ = W7 m ρ c (Proc.devRef .tc main_arg28) := W8_of_ne m ρ c main_arg28 (by decide)
    _ = W6 m ρ c (Proc.devRef .tc main_arg28) := by host_skip hostOps3
    _ = W5 m ρ c (Proc.devRef .tc main_arg28) := W6_of_ne m ρ c main_arg28 (by decide)
    _ = W4 m ρ c (Proc.devRef .tc main_arg28) := by host_skip hostOps2
    _ = W3 m ρ c (Proc.devRef .tc main_arg28) := W4_of_ne m ρ c main_arg28 (by decide)
    _ = W2 m ρ c (Proc.devRef .tc main_arg28) := by host_skip hostOps1
    _ = W1 m ρ c (Proc.devRef .tc main_arg28) := W2_of_ne m ρ c main_arg28 (by decide)
    _ = W0 m ρ c (Proc.devRef .tc main_arg28) := by host_skip hostOps0
    _ = m ((c : Thread nD τ).loc main_arg28) := rfl

theorem W9_arg29 (c : Dev nD) : W9 m ρ c (Proc.devRef .tc main_arg29) = m ((c : Thread nD τ).loc main_arg29) :=
  calc W9 m ρ c (Proc.devRef .tc main_arg29)
    _ = W8 m ρ c (Proc.devRef .tc main_arg29) := by host_skip hostOps4
    _ = W7 m ρ c (Proc.devRef .tc main_arg29) := W8_of_ne m ρ c main_arg29 (by decide)
    _ = W6 m ρ c (Proc.devRef .tc main_arg29) := by host_skip hostOps3
    _ = W5 m ρ c (Proc.devRef .tc main_arg29) := W6_of_ne m ρ c main_arg29 (by decide)
    _ = W4 m ρ c (Proc.devRef .tc main_arg29) := by host_skip hostOps2
    _ = W3 m ρ c (Proc.devRef .tc main_arg29) := W4_of_ne m ρ c main_arg29 (by decide)
    _ = W2 m ρ c (Proc.devRef .tc main_arg29) := by host_skip hostOps1
    _ = W1 m ρ c (Proc.devRef .tc main_arg29) := W2_of_ne m ρ c main_arg29 (by decide)
    _ = W0 m ρ c (Proc.devRef .tc main_arg29) := by host_skip hostOps0
    _ = m ((c : Thread nD τ).loc main_arg29) := rfl

/-! ## The two rows of the edge list where they are read

The first stretch writes them; nothing writes them again, and no kernel has them among its arrays. -/

section Edges

variable [Cert.ReferenceIdeal.Facts]

theorem W2_v1 (c : Dev nD) : W2 m ρ c (Proc.devRef .tc main_v1) = Cert.Net.srcOf (m ((c : Thread nD τ).loc main_arg1)) :=
  calc W2 m ρ c (Proc.devRef .tc main_v1)
    _ = W1 m ρ c (Proc.devRef .tc main_v1) := W2_of_ne m ρ c main_v1 (by decide)
    _ = Cert.Net.srcOf (W0 m ρ c (Proc.devRef .tc main_arg1)) := host0_src (W0 m ρ c)
    _ = Cert.Net.srcOf (m ((c : Thread nD τ).loc main_arg1)) := rfl

theorem W2_v3 (c : Dev nD) : W2 m ρ c (Proc.devRef .tc main_v3) = Cert.Net.dstOf (m ((c : Thread nD τ).loc main_arg1)) :=
  calc W2 m ρ c (Proc.devRef .tc main_v3)
    _ = W1 m ρ c (Proc.devRef .tc main_v3) := W2_of_ne m ρ c main_v3 (by decide)
    _ = Cert.Net.dstOf (W0 m ρ c (Proc.devRef .tc main_arg1)) := host0_dst (W0 m ρ c)
    _ = Cert.Net.dstOf (m ((c : Thread nD τ).loc main_arg1)) := rfl

theorem W4_v1 (c : Dev nD) : W4 m ρ c (Proc.devRef .tc main_v1) = Cert.Net.srcOf (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by host_skip hostOps1
    _ = W1 m ρ c (Proc.devRef .tc main_v1) := W2_of_ne m ρ c main_v1 (by decide)
    _ = Cert.Net.srcOf (W0 m ρ c (Proc.devRef .tc main_arg1)) := host0_src (W0 m ρ c)
    _ = Cert.Net.srcOf (m ((c : Thread nD τ).loc main_arg1)) := rfl

theorem W4_v3 (c : Dev nD) : W4 m ρ c (Proc.devRef .tc main_v3) = Cert.Net.dstOf (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by host_skip hostOps1
    _ = W1 m ρ c (Proc.devRef .tc main_v3) := W2_of_ne m ρ c main_v3 (by decide)
    _ = Cert.Net.dstOf (W0 m ρ c (Proc.devRef .tc main_arg1)) := host0_dst (W0 m ρ c)
    _ = Cert.Net.dstOf (m ((c : Thread nD τ).loc main_arg1)) := rfl

theorem W6_v1 (c : Dev nD) : W6 m ρ c (Proc.devRef .tc main_v1) = Cert.Net.srcOf (m ((c : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := by host_skip hostOps2
    _ = W3 m ρ c (Proc.devRef .tc main_v1) := W4_of_ne m ρ c main_v1 (by decide)
    _ = W2 m ρ c (Proc.devRef .tc main_v1) := by host_skip hostOps1
    _ = W1 m ρ c (Proc.devRef .tc main_v1) := W2_of_ne m ρ c main_v1 (by decide)
    _ = Cert.Net.srcOf (W0 m ρ c (Proc.devRef .tc main_arg1)) := host0_src (W0 m ρ c)
    _ = Cert.Net.srcOf (m ((c : Thread nD τ).loc main_arg1)) := rfl

theorem W6_v3 (c : Dev nD) : W6 m ρ c (Proc.devRef .tc main_v3) = Cert.Net.dstOf (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by host_skip hostOps2
    _ = W3 m ρ c (Proc.devRef .tc main_v3) := W4_of_ne m ρ c main_v3 (by decide)
    _ = W2 m ρ c (Proc.devRef .tc main_v3) := by host_skip hostOps1
    _ = W1 m ρ c (Proc.devRef .tc main_v3) := W2_of_ne m ρ c main_v3 (by decide)
    _ = Cert.Net.dstOf (W0 m ρ c (Proc.devRef .tc main_arg1)) := host0_dst (W0 m ρ c)
    _ = Cert.Net.dstOf (m ((c : Thread nD τ).loc main_arg1)) := rfl

end Edges

/-! ## The five kernels' results -/

section Kernels

variable [Cert.ReferenceIdeal.Facts]

/-- After the first kernel the node features are the input layer of the first, fourth and fifth arguments. -/
theorem ker0 (c : Dev nD) :
    W2 m ρ c (Proc.devRef .tc main_v4)
      = Cert.Net.embed (m ((c : Thread nD τ).loc main_arg0)) (m ((c : Thread nD τ).loc main_arg3)) (m ((c : Thread nD τ).loc main_arg4)) := by
  refine (W2_arr m ρ c 3).trans ((final0 (V1 m ρ) c).trans ?_)
  show Cert.Net.lin (W1 m ρ c (Proc.devRef .tc main_arg0)) (W1 m ρ c (Proc.devRef .tc main_arg3)) (W1 m ρ c (Proc.devRef .tc main_arg4)) = _
  rw [W1_arg0, W1_arg3, W1_arg4]
  rfl

/-- After the first graph-convolution kernel the node features are one round of message passing on those before it. -/
theorem ker1 (c : Dev nD) :
    W4 m ρ c (Proc.devRef .tc main_v24)
      = Cert.Net.layer (W2 m ρ c (Proc.devRef .tc main_v4)) (m ((c : Thread nD τ).loc main_arg1))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11)) := by
  refine (W4_arr m ρ c 9).trans ((final1 (V3 m ρ) c).trans ?_)
  show Cert.Net.sage (W3 m ρ c (Proc.devRef .tc main_v23)) (W3 m ρ c (Proc.devRef .tc main_v4))
      (W3 m ρ c (Proc.devRef .tc main_arg5))
      (W3 m ρ c (Proc.devRef .tc main_arg7))
      (W3 m ρ c (Proc.devRef .tc main_arg6))
      (W3 m ρ c (Proc.devRef .tc main_arg8))
      (W3 m ρ c (Proc.devRef .tc main_arg9))
      (W3 m ρ c (Proc.devRef .tc main_arg10))
      (W3 m ρ c (Proc.devRef .tc main_arg11)) = _
  have hagg : W3 m ρ c (Proc.devRef .tc main_v23)
      = Cert.Net.aggV (W2 m ρ c (Proc.devRef .tc main_v4)) (W2 m ρ c (Proc.devRef .tc main_v1)) (W2 m ρ c (Proc.devRef .tc main_v3)) :=
    host1_agg (W2 m ρ c)
  have hfeat : W3 m ρ c (Proc.devRef .tc main_v4) = W2 m ρ c (Proc.devRef .tc main_v4) := by host_skip hostOps1
  rw [hagg, hfeat, W2_v1, W2_v3, W3_arg5, W3_arg6, W3_arg7, W3_arg8, W3_arg9, W3_arg10, W3_arg11]
  rfl

/-- After the second graph-convolution kernel the node features are one round of message passing on those before it. -/
theorem ker2 (c : Dev nD) :
    W6 m ρ c (Proc.devRef .tc main_v44)
      = Cert.Net.layer (W4 m ρ c (Proc.devRef .tc main_v24)) (m ((c : Thread nD τ).loc main_arg1))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18)) := by
  refine (W6_arr m ρ c 9).trans ((final2 (V5 m ρ) c).trans ?_)
  show Cert.Net.sage (W5 m ρ c (Proc.devRef .tc main_v43)) (W5 m ρ c (Proc.devRef .tc main_v24))
      (W5 m ρ c (Proc.devRef .tc main_arg12))
      (W5 m ρ c (Proc.devRef .tc main_arg14))
      (W5 m ρ c (Proc.devRef .tc main_arg13))
      (W5 m ρ c (Proc.devRef .tc main_arg15))
      (W5 m ρ c (Proc.devRef .tc main_arg16))
      (W5 m ρ c (Proc.devRef .tc main_arg17))
      (W5 m ρ c (Proc.devRef .tc main_arg18)) = _
  have hagg : W5 m ρ c (Proc.devRef .tc main_v43)
      = Cert.Net.aggV (W4 m ρ c (Proc.devRef .tc main_v24)) (W4 m ρ c (Proc.devRef .tc main_v1)) (W4 m ρ c (Proc.devRef .tc main_v3)) :=
    host2_agg (W4 m ρ c)
  have hfeat : W5 m ρ c (Proc.devRef .tc main_v24) = W4 m ρ c (Proc.devRef .tc main_v24) := by host_skip hostOps2
  rw [hagg, hfeat, W4_v1, W4_v3, W5_arg12, W5_arg13, W5_arg14, W5_arg15, W5_arg16, W5_arg17, W5_arg18]
  rfl

/-- After the third graph-convolution kernel the node features are one round of message passing on those before it. -/
theorem ker3 (c : Dev nD) :
    W8 m ρ c (Proc.devRef .tc main_v64)
      = Cert.Net.layer (W6 m ρ c (Proc.devRef .tc main_v44)) (m ((c : Thread nD τ).loc main_arg1))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24))
        (m ((c : Thread nD τ).loc main_arg25)) := by
  refine (W8_arr m ρ c 9).trans ((final3 (V7 m ρ) c).trans ?_)
  show Cert.Net.sage (W7 m ρ c (Proc.devRef .tc main_v63)) (W7 m ρ c (Proc.devRef .tc main_v44))
      (W7 m ρ c (Proc.devRef .tc main_arg19))
      (W7 m ρ c (Proc.devRef .tc main_arg21))
      (W7 m ρ c (Proc.devRef .tc main_arg20))
      (W7 m ρ c (Proc.devRef .tc main_arg22))
      (W7 m ρ c (Proc.devRef .tc main_arg23))
      (W7 m ρ c (Proc.devRef .tc main_arg24))
      (W7 m ρ c (Proc.devRef .tc main_arg25)) = _
  have hagg : W7 m ρ c (Proc.devRef .tc main_v63)
      = Cert.Net.aggV (W6 m ρ c (Proc.devRef .tc main_v44)) (W6 m ρ c (Proc.devRef .tc main_v1)) (W6 m ρ c (Proc.devRef .tc main_v3)) :=
    host3_agg (W6 m ρ c)
  have hfeat : W7 m ρ c (Proc.devRef .tc main_v44) = W6 m ρ c (Proc.devRef .tc main_v44) := by host_skip hostOps3
  rw [hagg, hfeat, W6_v1, W6_v3, W7_arg19, W7_arg20, W7_arg21, W7_arg22, W7_arg23, W7_arg24, W7_arg25]
  rfl

/-- After the last kernel the class scores are the classifier of the per-graph mean of the last node features. -/
theorem kerOut (c : Dev nD) :
    W10 m ρ c (Proc.devRef .tc main_v77)
      = Cert.Net.classify (W8 m ρ c (Proc.devRef .tc main_v64)) (m ((c : Thread nD τ).loc main_arg2))
        (m ((c : Thread nD τ).loc main_arg26)) (m ((c : Thread nD τ).loc main_arg27)) (m ((c : Thread nD τ).loc main_arg28)) (m ((c : Thread nD τ).loc main_arg29)) := by
  refine (W10_arr m ρ c 5).trans ((final4 (V9 m ρ) c).trans ?_)
  show Cert.Net.head (W9 m ρ c (Proc.devRef .tc main_v76))
      (W9 m ρ c (Proc.devRef .tc main_arg26))
      (W9 m ρ c (Proc.devRef .tc main_arg27))
      (W9 m ρ c (Proc.devRef .tc main_arg28))
      (W9 m ρ c (Proc.devRef .tc main_arg29)) = _
  have hpool : W9 m ρ c (Proc.devRef .tc main_v76)
      = Cert.Net.poolV (W8 m ρ c (Proc.devRef .tc main_v64)) (W8 m ρ c (Proc.devRef .tc main_arg2)) :=
    host4_pool (W8 m ρ c)
  rw [hpool, W8_arg2, W9_arg26, W9_arg27, W9_arg28, W9_arg29]
  rfl

end Kernels

/-! ## The intermediate node features stay

Each is written by its kernel, read by the next stretch and the next kernel — a kernel leaves an array it only reads as it
found it —, and touched by nothing after that. -/

/-- The node features after the first round end as the first graph-convolution kernel left them. -/
theorem keep24 (c : Dev nD) : W10 m ρ c (Proc.devRef .tc main_v24) = W4 m ρ c (Proc.devRef .tc main_v24) :=
  calc W10 m ρ c (Proc.devRef .tc main_v24)
    _ = W9 m ρ c (Proc.devRef .tc main_v24) := W10_of_ne m ρ c main_v24 (by decide)
    _ = W8 m ρ c (Proc.devRef .tc main_v24) := by host_skip hostOps4
    _ = W7 m ρ c (Proc.devRef .tc main_v24) := W8_of_ne m ρ c main_v24 (by decide)
    _ = W6 m ρ c (Proc.devRef .tc main_v24) := by host_skip hostOps3
    _ = W5 m ρ c (Proc.devRef .tc main_v24) := (W6_arr m ρ c 1).trans (((dat2 (V5 m ρ) c).arrAt_in 1 rfl _).trans (A_eq2 (V5 m ρ) c 1))
    _ = W4 m ρ c (Proc.devRef .tc main_v24) := by host_skip hostOps2

/-- Those after the second round, as the second left them. -/
theorem keep44 (c : Dev nD) : W10 m ρ c (Proc.devRef .tc main_v44) = W6 m ρ c (Proc.devRef .tc main_v44) :=
  calc W10 m ρ c (Proc.devRef .tc main_v44)
    _ = W9 m ρ c (Proc.devRef .tc main_v44) := W10_of_ne m ρ c main_v44 (by decide)
    _ = W8 m ρ c (Proc.devRef .tc main_v44) := by host_skip hostOps4
    _ = W7 m ρ c (Proc.devRef .tc main_v44) := (W8_arr m ρ c 1).trans (((dat3 (V7 m ρ) c).arrAt_in 1 rfl _).trans (A_eq3 (V7 m ρ) c 1))
    _ = W6 m ρ c (Proc.devRef .tc main_v44) := by host_skip hostOps3

/-- Those after the third round, as the third left them. -/
theorem keep64 (c : Dev nD) : W10 m ρ c (Proc.devRef .tc main_v64) = W8 m ρ c (Proc.devRef .tc main_v64) :=
  calc W10 m ρ c (Proc.devRef .tc main_v64)
    _ = W9 m ρ c (Proc.devRef .tc main_v64) := W10_of_ne m ρ c main_v64 (by decide)
    _ = W8 m ρ c (Proc.devRef .tc main_v64) := by host_skip hostOps4

end Cert.KernelIdeal.Val

end
-- ==== Proof.KernelValues.lean ====
/-
  The four arrays the kernel program returns, as the network of its argument arrays.

  The fold of the buffer contents through @main gives each kernel's result as one layer of what the fold held one
  boundary earlier. Substituting those equations into one another — the input layer into the first round of message
  passing, that into the second, that into the third, that into the classifier — leaves every returned array as a
  function of the launch memory alone.
-/
import proofs.«153138_j47364899340883_1_alg».proof.Proof.KernelFold

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

variable [Cert.ReferenceIdeal.Facts]

/-- The four arrays the kernel program returns, as functions of the argument arrays alone: the class scores are the
    classifier of the node features after three rounds of message passing, and the three other arrays are the node
    features after one, two and three rounds — each round applied to the features before it, the first to the input
    layer. Each kernel's result is a layer of what the fold held one boundary earlier; substituting them into one
    another, first to last, leaves the launch memory only. -/
theorem kernel_values (c : Dev nD) :
    W10 m ρ c (Proc.devRef .tc main_v77)
        = Cert.Net.classify
            (Cert.Net.layer
              (Cert.Net.layer
                (Cert.Net.layer (Cert.Net.embed (m ((c : Thread nD τ).loc main_arg0)) (m ((c : Thread nD τ).loc main_arg3)) (m ((c : Thread nD τ).loc main_arg4))) (m ((c : Thread nD τ).loc main_arg1))
                  (m ((c : Thread nD τ).loc main_arg5))
                  (m ((c : Thread nD τ).loc main_arg6))
                  (m ((c : Thread nD τ).loc main_arg7))
                  (m ((c : Thread nD τ).loc main_arg8))
                  (m ((c : Thread nD τ).loc main_arg9))
                  (m ((c : Thread nD τ).loc main_arg10))
                  (m ((c : Thread nD τ).loc main_arg11))) (m ((c : Thread nD τ).loc main_arg1))
                (m ((c : Thread nD τ).loc main_arg12))
                (m ((c : Thread nD τ).loc main_arg13))
                (m ((c : Thread nD τ).loc main_arg14))
                (m ((c : Thread nD τ).loc main_arg15))
                (m ((c : Thread nD τ).loc main_arg16))
                (m ((c : Thread nD τ).loc main_arg17))
                (m ((c : Thread nD τ).loc main_arg18))) (m ((c : Thread nD τ).loc main_arg1))
              (m ((c : Thread nD τ).loc main_arg19))
              (m ((c : Thread nD τ).loc main_arg20))
              (m ((c : Thread nD τ).loc main_arg21))
              (m ((c : Thread nD τ).loc main_arg22))
              (m ((c : Thread nD τ).loc main_arg23))
              (m ((c : Thread nD τ).loc main_arg24))
              (m ((c : Thread nD τ).loc main_arg25)))
            (m ((c : Thread nD τ).loc main_arg2)) (m ((c : Thread nD τ).loc main_arg26)) (m ((c : Thread nD τ).loc main_arg27)) (m ((c : Thread nD τ).loc main_arg28)) (m ((c : Thread nD τ).loc main_arg29))
      ∧ W10 m ρ c (Proc.devRef .tc main_v24)
        = (Cert.Net.layer (Cert.Net.embed (m ((c : Thread nD τ).loc main_arg0)) (m ((c : Thread nD τ).loc main_arg3)) (m ((c : Thread nD τ).loc main_arg4))) (m ((c : Thread nD τ).loc main_arg1))
            (m ((c : Thread nD τ).loc main_arg5))
            (m ((c : Thread nD τ).loc main_arg6))
            (m ((c : Thread nD τ).loc main_arg7))
            (m ((c : Thread nD τ).loc main_arg8))
            (m ((c : Thread nD τ).loc main_arg9))
            (m ((c : Thread nD τ).loc main_arg10))
            (m ((c : Thread nD τ).loc main_arg11)))
      ∧ W10 m ρ c (Proc.devRef .tc main_v44)
        = (Cert.Net.layer
            (Cert.Net.layer (Cert.Net.embed (m ((c : Thread nD τ).loc main_arg0)) (m ((c : Thread nD τ).loc main_arg3)) (m ((c : Thread nD τ).loc main_arg4))) (m ((c : Thread nD τ).loc main_arg1))
              (m ((c : Thread nD τ).loc main_arg5))
              (m ((c : Thread nD τ).loc main_arg6))
              (m ((c : Thread nD τ).loc main_arg7))
              (m ((c : Thread nD τ).loc main_arg8))
              (m ((c : Thread nD τ).loc main_arg9))
              (m ((c : Thread nD τ).loc main_arg10))
              (m ((c : Thread nD τ).loc main_arg11))) (m ((c : Thread nD τ).loc main_arg1))
            (m ((c : Thread nD τ).loc main_arg12))
            (m ((c : Thread nD τ).loc main_arg13))
            (m ((c : Thread nD τ).loc main_arg14))
            (m ((c : Thread nD τ).loc main_arg15))
            (m ((c : Thread nD τ).loc main_arg16))
            (m ((c : Thread nD τ).loc main_arg17))
            (m ((c : Thread nD τ).loc main_arg18)))
      ∧ W10 m ρ c (Proc.devRef .tc main_v64)
        = (Cert.Net.layer
            (Cert.Net.layer
              (Cert.Net.layer (Cert.Net.embed (m ((c : Thread nD τ).loc main_arg0)) (m ((c : Thread nD τ).loc main_arg3)) (m ((c : Thread nD τ).loc main_arg4))) (m ((c : Thread nD τ).loc main_arg1))
                (m ((c : Thread nD τ).loc main_arg5))
                (m ((c : Thread nD τ).loc main_arg6))
                (m ((c : Thread nD τ).loc main_arg7))
                (m ((c : Thread nD τ).loc main_arg8))
                (m ((c : Thread nD τ).loc main_arg9))
                (m ((c : Thread nD τ).loc main_arg10))
                (m ((c : Thread nD τ).loc main_arg11))) (m ((c : Thread nD τ).loc main_arg1))
              (m ((c : Thread nD τ).loc main_arg12))
              (m ((c : Thread nD τ).loc main_arg13))
              (m ((c : Thread nD τ).loc main_arg14))
              (m ((c : Thread nD τ).loc main_arg15))
              (m ((c : Thread nD τ).loc main_arg16))
              (m ((c : Thread nD τ).loc main_arg17))
              (m ((c : Thread nD τ).loc main_arg18))) (m ((c : Thread nD τ).loc main_arg1))
            (m ((c : Thread nD τ).loc main_arg19))
            (m ((c : Thread nD τ).loc main_arg20))
            (m ((c : Thread nD τ).loc main_arg21))
            (m ((c : Thread nD τ).loc main_arg22))
            (m ((c : Thread nD τ).loc main_arg23))
            (m ((c : Thread nD τ).loc main_arg24))
            (m ((c : Thread nD τ).loc main_arg25))) := by
  have h1 := ker1 m ρ c
  rw [ker0 m ρ c] at h1
  have h2 := ker2 m ρ c
  rw [h1] at h2
  have h3 := ker3 m ρ c
  rw [h2] at h3
  have h4 := kerOut m ρ c
  rw [h3] at h4
  exact ⟨h4, (keep24 m ρ c).trans h1, (keep44 m ρ c).trans h2, (keep64 m ρ c).trans h3⟩

end Cert.KernelIdeal.Val

end
-- ==== Proof.RefValue.lean ====
/-
  The reference program's four results are the network of Net.lean applied to its argument arrays.

  The program is a chain of host operations, each a function of earlier ones. Three facts carry the comparison:

  * a contraction of a [R, 128] array with a [128, N] array over their shared axis is the product `rowsTimes`
    (the record's operand indices are (row, k) and (k, column));
  * a vector broadcast first to one row and then to all rows is read, at (r, j), at j;
  * the host's aggregation chain (gather along the edges' sources, scatter-add at their targets, division by
    the clamped arrival counts) is the function `aggV` word for word, and the pooling chain is `poolV`,
    so neither is opened.

  One layer of the program — two products, the bias, the normalisation by mean and variance, the rectifier —
  is stated once as a function `hostLayer` of its operands and shown to be `sage`; it adds the bias to the
  first product before the second product, which is the same entry because addition of extended reals is
  commutative and associative. The three layers are instances of it; the classifier likewise is `head`.
-/
import proofs.«153138_j47364899340883_1_alg».proof.Proof.Gen.ReferenceIdeal.Read
import proofs.«153138_j47364899340883_1_alg».proof.Proof.Net
import proofs.«153138_j47364899340883_1_alg».proof.Proof.LibRowsCols

noncomputable section

namespace Cert.Net.Ref

open Cert.ReferenceIdeal Cert.ReferenceIdeal.Read Idealize.ShloMosaic Idealize.ShloMosaic.ValueIdx Cert.Dense

variable [Cert.ReferenceIdeal.Facts]

/-! ## The contraction records -/

/-- The node-feature contraction, [50000, 128] · [128, 128], contracts the one shared axis: rows times columns. -/
theorem rowsCols_node : RowsCols (R := 50000) (K := 128) (N := 128) dot_S50000x128_S128x128_S50000x128_1_0_0_1_n_n where
  rank := rfl
  size := rfl
  l0 := lhs_main_v4_0
  l1 := lhs_main_v4_1
  r0 := rhs_main_v4_0
  r1 := rhs_main_v4_1

/-- The pooled-feature contraction, [512, 128] · [128, 128], likewise. -/
theorem rowsCols_pool : RowsCols (R := 512) (K := 128) (N := 128) dot_S512x128_S128x128_S512x128_1_0_0_1_n_n where
  rank := rfl
  size := rfl
  l0 := lhs_main_v137_0
  l1 := lhs_main_v137_1
  r0 := rhs_main_v137_0
  r1 := rhs_main_v137_1

/-- The class-score contraction, [512, 128] · [128, 10], likewise. -/
theorem rowsCols_out : RowsCols (R := 512) (K := 128) (N := 10) dot_S512x128_S128x10_S512x10_1_0_0_1_n_n where
  rank := rfl
  size := rfl
  l0 := lhs_main_v142_0
  l1 := lhs_main_v142_1
  r0 := rhs_main_v142_0
  r1 := rhs_main_v142_1

/-! ## Vectors broadcast over the rows -/

/-- A vector of 128 entries broadcast to [1, 128] and then to [50000, 128] is read at the column. -/
theorem col_apply (b : (⟨S128, .f32⟩ : BufTy).Contents (Elt Ideal)) (i : S50000x128.Idx) :
    val_main_v29 (F := Ideal) b i = b (ix1 (i 1 : Fin 128)) := by
  refine (val_main_v29_apply (F := Ideal) b i).trans ?_
  refine (val_main_v28_apply (F := Ideal) b _).trans ?_
  exact congrArg b (funext fun a => match a with | ⟨0, _⟩ => rfl)

/-- The same over the 512 rows of the pooled features. -/
theorem col_apply_pool (b : (⟨S128, .f32⟩ : BufTy).Contents (Elt Ideal)) (i : S512x128.Idx) :
    val_main_v139 (F := Ideal) b i = b (ix1 (i 1 : Fin 128)) := by
  refine (val_main_v139_apply (F := Ideal) b i).trans ?_
  refine (val_main_v138_apply (F := Ideal) b _).trans ?_
  exact congrArg b (funext fun a => match a with | ⟨0, _⟩ => rfl)

/-- The same for the 10 class biases over the 512 rows. -/
theorem col_apply_out (b : (⟨S10, .f32⟩ : BufTy).Contents (Elt Ideal)) (i : S512x10.Idx) :
    val_main_v144 (F := Ideal) b i = b (ix1 (i 1 : Fin 10)) := by
  refine (val_main_v144_apply (F := Ideal) b i).trans ?_
  refine (val_main_v143_apply (F := Ideal) b _).trans ?_
  exact congrArg b (funext fun a => match a with | ⟨0, _⟩ => rfl)

/-- The normalisation's scale, g · rsqrt (v + ε) entry by entry, broadcast over the rows, read at the column. -/
theorem scale_apply (g bv : (⟨S128, .f32⟩ : BufTy).Contents (Elt Ideal)) (i : S50000x128.Idx) :
    val_main_v41 (F := Ideal) g bv i
      = g (ix1 (i 1 : Fin 128)) * Ideal.rsqrt (bv (ix1 (i 1 : Fin 128)) + Cert.Net.eps) := by
  refine (val_main_v41_apply (F := Ideal) g bv i).trans ?_
  refine (val_main_v40_apply (F := Ideal) g bv _).trans ?_
  have hj : idx_main_v40 (idx_main_v41 i) = ix1 (i 1 : Fin 128) := funext fun a => match a with | ⟨0, _⟩ => rfl
  rw [hj]
  exact congrArg (fun z => g (ix1 (i 1 : Fin 128)) * Ideal.rsqrt (bv (ix1 (i 1 : Fin 128)) + z))
    ((val_main_v36_apply (F := Ideal) _).trans rfl)

/-- The zero the rectifier compares against, broadcast over the node features. -/
theorem zero_apply (i : S50000x128.Idx) : val_main_call0_v0 (F := Ideal) i = Cert.Net.zero := by
  rw [val_main_call0_v0_apply]; rfl

/-- The same over the pooled features. -/
theorem zero_apply_pool (i : S512x128.Idx) : val_main_call3_v0 (F := Ideal) i = Cert.Net.zero := by
  rw [val_main_call3_v0_apply]; rfl

/-! ## One layer, as a function of its operands -/

/-- The host operations of one layer applied to the aggregated features `A`, the features `X` and the layer's
    parameters: (A·wl + bl) + X·wr, minus the mean, times the scale, plus the shift, rectified. -/
def hostLayer (A X : (⟨S50000x128, .f32⟩ : BufTy).Contents (Elt Ideal)) (wl : (⟨S128x128, .f32⟩ : BufTy).Contents (Elt Ideal)) (bl : (⟨S128, .f32⟩ : BufTy).Contents (Elt Ideal)) (wr : (⟨S128x128, .f32⟩ : BufTy).Contents (Elt Ideal)) (g bb bm bv : (⟨S128, .f32⟩ : BufTy).Contents (Elt Ideal)) : (⟨S50000x128, .f32⟩ : BufTy).Contents (Elt Ideal) :=
  maximumf
    (addf
      (mulf
        (subf
          (addf (addf (Host.dotGeneral (F := Ideal) (φ₁ := .f32) (φ₂ := .f32) dot_S50000x128_S128x128_S50000x128_1_0_0_1_n_n none A wl) (val_main_v29 (F := Ideal) bl))
            (Host.dotGeneral (F := Ideal) (φ₁ := .f32) (φ₂ := .f32) dot_S50000x128_S128x128_S50000x128_1_0_0_1_n_n none X wr))
          (val_main_v34 (F := Ideal) bm))
        (val_main_v41 (F := Ideal) g bv))
      (val_main_v44 (F := Ideal) bb))
    (val_main_call0_v0 (F := Ideal))

/-- That function is the layer `sage` of LibNormedLayers: the two contractions are products, the broadcasts are read at the
    column, and the bias may be added before or after the second product. -/
theorem hostLayer_eq (A X : (⟨S50000x128, .f32⟩ : BufTy).Contents (Elt Ideal)) (wl : (⟨S128x128, .f32⟩ : BufTy).Contents (Elt Ideal)) (bl : (⟨S128, .f32⟩ : BufTy).Contents (Elt Ideal)) (wr : (⟨S128x128, .f32⟩ : BufTy).Contents (Elt Ideal)) (g bb bm bv : (⟨S128, .f32⟩ : BufTy).Contents (Elt Ideal)) :
    hostLayer A X wl bl wr g bb bm bv = sage A X wl wr bl g bb bm bv := by
  funext i
  refine Eq.trans ?_ (sage_bias_first A X wl wr bl g bb bm bv i)
  show max ((((Host.dotGeneral (F := Ideal) (φ₁ := .f32) (φ₂ := .f32) dot_S50000x128_S128x128_S50000x128_1_0_0_1_n_n none A wl i + val_main_v29 (F := Ideal) bl i)
        + Host.dotGeneral (F := Ideal) (φ₁ := .f32) (φ₂ := .f32) dot_S50000x128_S128x128_S50000x128_1_0_0_1_n_n none X wr i) - val_main_v29 (F := Ideal) bm i) * val_main_v41 (F := Ideal) g bv i
        + val_main_v29 (F := Ideal) bb i) (val_main_call0_v0 (F := Ideal) i)
    = max ((((rowsTimes A wl i + bl (ix1 (i 1 : Fin 128))) + rowsTimes X wr i) - bm (ix1 (i 1 : Fin 128)))
        * (g (ix1 (i 1 : Fin 128)) * Ideal.rsqrt (bv (ix1 (i 1 : Fin 128)) + Cert.Net.eps)) + bb (ix1 (i 1 : Fin 128))) Cert.Net.zero
  rw [dotGeneral_apply rowsCols_node, dotGeneral_apply rowsCols_node, col_apply, col_apply, col_apply, scale_apply,
    zero_apply]

/-! ## The input layer -/

/-- The first stage of node features is the input layer. -/
theorem embed_eq (x0 : (⟨S50000x128, .f32⟩ : BufTy).Contents (Elt Ideal)) (x3 : (⟨S128x128, .f32⟩ : BufTy).Contents (Elt Ideal)) (x4 : (⟨S128, .f32⟩ : BufTy).Contents (Elt Ideal)) :
    val_main_v7 (F := Ideal) x0 x3 x4 = Cert.Net.embed x0 x3 x4 := by
  funext i
  show Host.dotGeneral (F := Ideal) (φ₁ := .f32) (φ₂ := .f32) dot_S50000x128_S128x128_S50000x128_1_0_0_1_n_n none x0 x3 i + val_main_v29 (F := Ideal) x4 i
    = rowsTimes x0 x3 i + x4 (ix1 (i 1 : Fin 128))
  rw [dotGeneral_apply rowsCols_node, col_apply]

/-! ## The three rounds of message passing -/

/-- After one round. -/
theorem ref1 (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 x11 : (⟨S128, .f32⟩ : BufTy).Contents (Elt Ideal)) :
    val_main_v46 (F := Ideal) x0 x1 x3 x4 x5 x6 x7 x8 x9 x10 x11
      = Cert.Net.layer (Cert.Net.embed x0 x3 x4) x1 x5 x6 x7 x8 x9 x10 x11 := by
  have hagg : val_main_v26 (F := Ideal) x0 x1 x3 x4
      = aggV (val_main_v7 (F := Ideal) x0 x3 x4) (srcOf x1) (dstOf x1) := rfl
  have hlay : val_main_v46 (F := Ideal) x0 x1 x3 x4 x5 x6 x7 x8 x9 x10 x11
      = hostLayer (val_main_v26 (F := Ideal) x0 x1 x3 x4) (val_main_v7 (F := Ideal) x0 x3 x4) x5 x6 x7 x8 x9 x10 x11 := rfl
  rw [hlay, hostLayer_eq, hagg, embed_eq]
  rfl

/-- After two rounds. -/
theorem ref2 (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 x11 : (⟨S128, .f32⟩ : BufTy).Contents (Elt Ideal))
    (x12 : (⟨S128x128, .f32⟩ : BufTy).Contents (Elt Ideal)) (x13 : (⟨S128, .f32⟩ : BufTy).Contents (Elt Ideal)) (x14 : (⟨S128x128, .f32⟩ : BufTy).Contents (Elt Ideal)) (x15 x16 x17 x18 : (⟨S128, .f32⟩ : BufTy).Contents (Elt Ideal)) :
    val_main_v85 (F := Ideal) x0 x1 x3 x4 x5 x6 x7 x8 x9 x10 x11 x12 x13 x14 x15 x16 x17 x18
      = Cert.Net.layer (val_main_v46 (F := Ideal) x0 x1 x3 x4 x5 x6 x7 x8 x9 x10 x11) x1 x12 x13 x14 x15 x16 x17 x18 := by
  have hagg : val_main_v65 (F := Ideal) x0 x1 x3 x4 x5 x6 x7 x8 x9 x10 x11
      = aggV (val_main_v46 (F := Ideal) x0 x1 x3 x4 x5 x6 x7 x8 x9 x10 x11) (srcOf x1) (dstOf x1) := rfl
  have hlay : val_main_v85 (F := Ideal) x0 x1 x3 x4 x5 x6 x7 x8 x9 x10 x11 x12 x13 x14 x15 x16 x17 x18
      = hostLayer (val_main_v65 (F := Ideal) x0 x1 x3 x4 x5 x6 x7 x8 x9 x10 x11) (val_main_v46 (F := Ideal) x0 x1 x3 x4 x5 x6 x7 x8 x9 x10 x11) x12 x13 x14 x15 x16 x17 x18 := rfl
  rw [hlay, hostLayer_eq, hagg]
  rfl

/-- After three rounds. -/
theorem ref3 (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 x11 : (⟨S128, .f32⟩ : BufTy).Contents (Elt Ideal))
    (x12 : (⟨S128x128, .f32⟩ : BufTy).Contents (Elt Ideal)) (x13 : (⟨S128, .f32⟩ : BufTy).Contents (Elt Ideal)) (x14 : (⟨S128x128, .f32⟩ : BufTy).Contents (Elt Ideal)) (x15 x16 x17 x18 : (⟨S128, .f32⟩ : BufTy).Contents (Elt Ideal))
    (x19 : (⟨S128x128, .f32⟩ : BufTy).Contents (Elt Ideal)) (x20 : (⟨S128, .f32⟩ : BufTy).Contents (Elt Ideal)) (x21 : (⟨S128x128, .f32⟩ : BufTy).Contents (Elt Ideal)) (x22 x23 x24 x25 : (⟨S128, .f32⟩ : BufTy).Contents (Elt Ideal)) :
    val_main_v124 (F := Ideal) x0 x1 x3 x4 x5 x6 x7 x8 x9 x10 x11 x12 x13 x14 x15 x16 x17 x18 x19 x20 x21 x22 x23 x24 x25
      = Cert.Net.layer (val_main_v85 (F := Ideal) x0 x1 x3 x4 x5 x6 x7 x8 x9 x10 x11 x12 x13 x14 x15 x16 x17 x18) x1 x19 x20 x21 x22 x23 x24 x25 := by
  have hagg : val_main_v104 (F := Ideal) x0 x1 x3 x4 x5 x6 x7 x8 x9 x10 x11 x12 x13 x14 x15 x16 x17 x18
      = aggV (val_main_v85 (F := Ideal) x0 x1 x3 x4 x5 x6 x7 x8 x9 x10 x11 x12 x13 x14 x15 x16 x17 x18) (srcOf x1) (dstOf x1) := rfl
  have hlay : val_main_v124 (F := Ideal) x0 x1 x3 x4 x5 x6 x7 x8 x9 x10 x11 x12 x13 x14 x15 x16 x17 x18 x19 x20 x21 x22 x23 x24 x25
      = hostLayer (val_main_v104 (F := Ideal) x0 x1 x3 x4 x5 x6 x7 x8 x9 x10 x11 x12 x13 x14 x15 x16 x17 x18) (val_main_v85 (F := Ideal) x0 x1 x3 x4 x5 x6 x7 x8 x9 x10 x11 x12 x13 x14 x15 x16 x17 x18) x19 x20 x21 x22 x23 x24 x25 := rfl
  rw [hlay, hostLayer_eq, hagg]
  rfl

/-! ## The classifier -/

/-- The host operations of the classifier applied to the pooled features `p`: a product plus bias, rectified,
    then a second product plus bias. -/
def hostHead (p : (⟨S512x128, .f32⟩ : BufTy).Contents (Elt Ideal)) (w1 : (⟨S128x128, .f32⟩ : BufTy).Contents (Elt Ideal)) (b1 : (⟨S128, .f32⟩ : BufTy).Contents (Elt Ideal)) (w2 : (⟨S128x10, .f32⟩ : BufTy).Contents (Elt Ideal)) (b2 : (⟨S10, .f32⟩ : BufTy).Contents (Elt Ideal)) : (⟨S512x10, .f32⟩ : BufTy).Contents (Elt Ideal) :=
  addf
    (Host.dotGeneral (F := Ideal) (φ₁ := .f32) (φ₂ := .f32) dot_S512x128_S128x10_S512x10_1_0_0_1_n_n none
      (maximumf (addf (Host.dotGeneral (F := Ideal) (φ₁ := .f32) (φ₂ := .f32) dot_S512x128_S128x128_S512x128_1_0_0_1_n_n none p w1) (val_main_v139 (F := Ideal) b1)) (val_main_call3_v0 (F := Ideal)))
      w2)
    (val_main_v144 (F := Ideal) b2)

/-- That function is the classifier `head` of LibNormedLayers. -/
theorem hostHead_eq (p : (⟨S512x128, .f32⟩ : BufTy).Contents (Elt Ideal)) (w1 : (⟨S128x128, .f32⟩ : BufTy).Contents (Elt Ideal)) (b1 : (⟨S128, .f32⟩ : BufTy).Contents (Elt Ideal)) (w2 : (⟨S128x10, .f32⟩ : BufTy).Contents (Elt Ideal)) (b2 : (⟨S10, .f32⟩ : BufTy).Contents (Elt Ideal)) :
    hostHead p w1 b1 w2 b2 = head p w1 b1 w2 b2 := by
  have hid : maximumf (addf (Host.dotGeneral (F := Ideal) (φ₁ := .f32) (φ₂ := .f32) dot_S512x128_S128x128_S512x128_1_0_0_1_n_n none p w1) (val_main_v139 (F := Ideal) b1)) (val_main_call3_v0 (F := Ideal))
      = relu (lin p w1 b1) := by
    funext j
    show max (Host.dotGeneral (F := Ideal) (φ₁ := .f32) (φ₂ := .f32) dot_S512x128_S128x128_S512x128_1_0_0_1_n_n none p w1 j + val_main_v139 (F := Ideal) b1 j) (val_main_call3_v0 (F := Ideal) j)
      = max (rowsTimes p w1 j + b1 (ix1 (j 1 : Fin 128))) Cert.Net.zero
    rw [dotGeneral_apply rowsCols_pool, col_apply_pool, zero_apply_pool]
  funext i
  show Host.dotGeneral (F := Ideal) (φ₁ := .f32) (φ₂ := .f32) dot_S512x128_S128x10_S512x10_1_0_0_1_n_n none
        (maximumf (addf (Host.dotGeneral (F := Ideal) (φ₁ := .f32) (φ₂ := .f32) dot_S512x128_S128x128_S512x128_1_0_0_1_n_n none p w1) (val_main_v139 (F := Ideal) b1)) (val_main_call3_v0 (F := Ideal)))
        w2 i + val_main_v144 (F := Ideal) b2 i
    = rowsTimes (relu (lin p w1 b1)) w2 i + b2 (ix1 (i 1 : Fin 10))
  rw [hid, dotGeneral_apply rowsCols_out, col_apply_out]

/-- The class scores. -/
theorem refOut (x0 : (⟨S50000x128, .f32⟩ : BufTy).Contents (Elt Ideal)) (x1 : (⟨S2x1600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 x11 : (⟨S128, .f32⟩ : BufTy).Contents (Elt Ideal))
    (x12 : (⟨S128x128, .f32⟩ : BufTy).Contents (Elt Ideal)) (x13 : (⟨S128, .f32⟩ : BufTy).Contents (Elt Ideal)) (x14 : (⟨S128x128, .f32⟩ : BufTy).Contents (Elt Ideal)) (x15 x16 x17 x18 : (⟨S128, .f32⟩ : BufTy).Contents (Elt Ideal))
    (x19 : (⟨S128x128, .f32⟩ : BufTy).Contents (Elt Ideal)) (x20 : (⟨S128, .f32⟩ : BufTy).Contents (Elt Ideal)) (x21 : (⟨S128x128, .f32⟩ : BufTy).Contents (Elt Ideal)) (x22 x23 x24 x25 : (⟨S128, .f32⟩ : BufTy).Contents (Elt Ideal))
    (x26 : (⟨S128x128, .f32⟩ : BufTy).Contents (Elt Ideal)) (x27 : (⟨S128, .f32⟩ : BufTy).Contents (Elt Ideal)) (x28 : (⟨S128x10, .f32⟩ : BufTy).Contents (Elt Ideal)) (x29 : (⟨S10, .f32⟩ : BufTy).Contents (Elt Ideal)) :
    val_main_v145 (F := Ideal) x0 x1 x2 x3 x4 x5 x6 x7 x8 x9 x10 x11 x12 x13 x14 x15 x16 x17 x18 x19 x20 x21 x22 x23 x24 x25 x26 x27 x28 x29
      = Cert.Net.classify (val_main_v124 (F := Ideal) x0 x1 x3 x4 x5 x6 x7 x8 x9 x10 x11 x12 x13 x14 x15 x16 x17 x18 x19 x20 x21 x22 x23 x24 x25) x2 x26 x27 x28 x29 := by
  have hpool : val_main_v136 (F := Ideal) x0 x1 x2 x3 x4 x5 x6 x7 x8 x9 x10 x11 x12 x13 x14 x15 x16 x17 x18 x19 x20 x21 x22 x23 x24 x25
      = poolV (val_main_v124 (F := Ideal) x0 x1 x3 x4 x5 x6 x7 x8 x9 x10 x11 x12 x13 x14 x15 x16 x17 x18 x19 x20 x21 x22 x23 x24 x25) x2 := rfl
  have hhead : val_main_v145 (F := Ideal) x0 x1 x2 x3 x4 x5 x6 x7 x8 x9 x10 x11 x12 x13 x14 x15 x16 x17 x18 x19 x20 x21 x22 x23 x24 x25 x26 x27 x28 x29
      = hostHead (val_main_v136 (F := Ideal) x0 x1 x2 x3 x4 x5 x6 x7 x8 x9 x10 x11 x12 x13 x14 x15 x16 x17 x18 x19 x20 x21 x22 x23 x24 x25) x26 x27 x28 x29 := rfl
  rw [hhead, hostHead_eq, hpool]
  rfl

end Cert.Net.Ref

end
-- ==== Proof.lean ====
/-
  The certificate's five claims.

  Both programs return the class scores and the node features after one, two and three rounds of message passing.
  On the extended reals each of the four arrays is, in both programs, the same function of the argument arrays:
  the input layer `embed`, three times `layer` (the neighbour mean — one function applied by both programs, never
  opened — then the normalised, rectified graph-convolution layer), and `classify` (the per-graph mean, likewise
  one shared function, then two linear layers with a rectifier between them).

  * The kernel program's side: each kernel leaves, block of rows by block of rows, the layer of the whole arrays
    it was given (Finals); the host operations between the kernels are the shared functions; read through the
    program's run, the four result buffers end at those functions of the launch contents (KernelValues).
  * The reference's side: its host operations, read stage by stage, are the same functions (RefValue). The one
    algebraic difference is the order of three summands — (A·Wl + X·Wr) + b against (A·Wl + b) + X·Wr — and
    addition of extended reals is commutative and associative also at the infinities, so no entry need be finite:
    the precondition is never opened.
  * Nothing was rewritten between the kernel program and its idealization, and the three frames are the programs'
    runs with the results dropped.
-/
import proofs.«153138_j47364899340883_1_alg».proof.Defs
import proofs.«153138_j47364899340883_1_alg».proof.Proof.Gen.Kernel
import proofs.«153138_j47364899340883_1_alg».proof.Proof.Gen.Kernel.Frame
import proofs.«153138_j47364899340883_1_alg».proof.Proof.Gen.KernelIdeal
import proofs.«153138_j47364899340883_1_alg».proof.Proof.Gen.KernelIdeal.Frame
import proofs.«153138_j47364899340883_1_alg».proof.Proof.Gen.ReferenceIdeal
import proofs.«153138_j47364899340883_1_alg».proof.Proof.Gen.Pre_finite_inputs
import proofs.«153138_j47364899340883_1_alg».proof.Proof.Gen.ReferenceIdeal.Run
import proofs.«153138_j47364899340883_1_alg».proof.Proof.Gen.ReferenceIdeal.Read
import proofs.«153138_j47364899340883_1_alg».proof.Proof.KernelRun
import proofs.«153138_j47364899340883_1_alg».proof.Proof.KernelValues
import proofs.«153138_j47364899340883_1_alg».proof.Proof.RefValue
import Idealize.ShloMosaic.Adequacy
import Idealize.ShloMosaic.Init

noncomputable section

namespace Cert.Proof

open Idealize.ShloMosaic Idealize.ShloMosaic.TcCoe Idealize.SL.Sem

/-- The reference's four results as the network's functions of its argument arrays. -/
theorem ref_values (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v145 (F := Ideal) m' c
        = Cert.Net.classify (Cert.Net.layer (Cert.Net.layer (Cert.Net.layer (Cert.Net.embed (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29))
    ∧ Cert.ReferenceIdeal.Read.val_main_v46 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        = Cert.Net.layer (Cert.Net.embed (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
    ∧ Cert.ReferenceIdeal.Value.res_main_v85 (F := Ideal) m' c
        = Cert.Net.layer (Cert.Net.layer (Cert.Net.embed (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
    ∧ Cert.ReferenceIdeal.Value.res_main_v124 (F := Ideal) m' c
        = Cert.Net.layer (Cert.Net.layer (Cert.Net.layer (Cert.Net.embed (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) := by
  refine ⟨?_, ?_, ?_, ?_⟩
  · rw [Cert.ReferenceIdeal.Read.val_main_v145_eq, Cert.Net.Ref.refOut, Cert.Net.Ref.ref3, Cert.Net.Ref.ref2, Cert.Net.Ref.ref1]
  · rw [Cert.Net.Ref.ref1]
  · rw [Cert.ReferenceIdeal.Read.val_main_v85_eq, Cert.Net.Ref.ref2, Cert.Net.Ref.ref1]
  · rw [Cert.ReferenceIdeal.Read.val_main_v124_eq, Cert.Net.Ref.ref3, Cert.Net.Ref.ref2, Cert.Net.Ref.ref1]

theorem frame_k : Cert.frame_Kernel := fun m ρ _ => Cert.Kernel.Gen.frame m ρ

theorem frame_ki : Cert.frame_KernelIdeal := fun m ρ _ => Cert.KernelIdeal.Gen.frame m ρ

/-- The reference's frame is its run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing. -/
theorem preserves : Cert.preserves_Kernel_KernelIdeal := trivial

set_option maxHeartbeats 4000000 in
/-- From memories agreeing on the arguments both programs end with the network's four arrays of those arguments. -/
theorem algebraic : Cert.algebraic_KernelIdeal_ReferenceIdeal := by
  intro m ρ m' ρ' _ hagree
  refine ⟨_, _, _, _, Cert.KernelIdeal.Val.run_values m ρ, ?_⟩
  refine (θ_run Cert.ReferenceIdeal.defs _ _).mono (fun r h c => ?_) (Cert.ReferenceIdeal.Value.run (F := Ideal) m' ρ')
  obtain ⟨k0, k1, k2, k3⟩ := Cert.KernelIdeal.Val.kernel_values m ρ c
  obtain ⟨q0, q1, q2, q3⟩ := ref_values m' c
  obtain ⟨a0, a1, a2, a3, a4, a5, a6, a7, a8, a9, a10, a11, a12, a13, a14, a15, a16, a17, a18, a19, a20, a21, a22, a23, a24, a25, a26, a27, a28, a29⟩ := hagree c
  obtain ⟨r0, r1, r2, r3, rargs⟩ := h c
  refine ⟨r0.trans (q0.trans ?_), r1.trans ((Cert.ReferenceIdeal.Read.val_main_v46_eq (F := Ideal) _ _ _ _ _ _ _ _ _ _ _).trans (q1.trans ?_)),
    r2.trans (q2.trans ?_), r3.trans (q3.trans ?_), rargs⟩
  · rw [k0, a0, a1, a2, a3, a4, a5, a6, a7, a8, a9, a10, a11, a12, a13, a14, a15, a16, a17, a18, a19, a20, a21, a22, a23, a24, a25, a26, a27, a28, a29]
  · rw [k1, a0, a1, a3, a4, a5, a6, a7, a8, a9, a10, a11]
  · rw [k2, a0, a1, a3, a4, a5, a6, a7, a8, a9, a10, a11, a12, a13, a14, a15, a16, a17, a18]
  · rw [k3, a0, a1, a3, a4, a5, a6, a7, a8, a9, a10, a11, a12, a13, a14, a15, a16, a17, a18, a19, a20, a21, a22, a23, a24, a25]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
